-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x23 : Shape := ⟨2, ![4096, 23]⟩
abbrev S10x18x23 : Shape := ⟨3, ![10, 18, 23]⟩
abbrev S18x10x23x128 : Shape := ⟨4, ![18, 10, 23, 128]⟩
abbrev S18x10x128 : Shape := ⟨3, ![18, 10, 128]⟩
abbrev S18x10x128x128 : Shape := ⟨4, ![18, 10, 128, 128]⟩
abbrev S18x10x128x2 : Shape := ⟨4, ![18, 10, 128, 2]⟩
abbrev S18x10x2 : Shape := ⟨3, ![18, 10, 2]⟩
abbrev S_ : Shape := ⟨0, ![]⟩

class Facts : Prop where
  bcast_S_S4096x23 : S_.BroadcastsInDim S4096x23 (![] : Fin 0 → Fin S4096x23.rank)
  reducesTo_S4096x23_S_d0_1 : S4096x23.ReducesTo [0, 1] S_
  h_S_ : 0 < S_.numel
  bcast_S_S10x18x23 : S_.BroadcastsInDim S10x18x23 (![] : Fin 0 → Fin S10x18x23.rank)
  reducesTo_S10x18x23_S_d0_1_2 : S10x18x23.ReducesTo [0, 1, 2] S_
  bcast_S_S18x10x23x128 : S_.BroadcastsInDim S18x10x23x128 (![] : Fin 0 → Fin S18x10x23x128.rank)
  reducesTo_S18x10x23x128_S_d0_1_2_3 : S18x10x23x128.ReducesTo [0, 1, 2, 3] S_
  bcast_S_S18x10x128 : S_.BroadcastsInDim S18x10x128 (![] : Fin 0 → Fin S18x10x128.rank)
  reducesTo_S18x10x128_S_d0_1_2 : S18x10x128.ReducesTo [0, 1, 2] S_
  bcast_S_S18x10x128x128 : S_.BroadcastsInDim S18x10x128x128 (![] : Fin 0 → Fin S18x10x128x128.rank)
  reducesTo_S18x10x128x128_S_d0_1_2_3 : S18x10x128x128.ReducesTo [0, 1, 2, 3] S_
  bcast_S_S18x10x128x2 : S_.BroadcastsInDim S18x10x128x2 (![] : Fin 0 → Fin S18x10x128x2.rank)
  reducesTo_S18x10x128x2_S_d0_1_2_3 : S18x10x128x2.ReducesTo [0, 1, 2, 3] S_
  bcast_S_S18x10x2 : S_.BroadcastsInDim S18x10x2 (![] : Fin 0 → Fin S18x10x2.rank)
  reducesTo_S18x10x2_S_d0_1_2 : S18x10x2.ReducesTo [0, 1, 2] S_

variable [Facts]

def fn_part2 {F : FTy → Type} [FloatOps F] (main_arg7 : FVec F S18x10x2 .f32) (main_v33 : IVec S_ 1) : IVec S_ 1 :=
  let main_v34 : FVec F S18x10x2 .f32 := Host.absf main_arg7
  let main_cst_12 : FVec F S_ .f32 := constant S_ .f32 0x7F800000#32
  let main_v35 : FVec F S18x10x2 .f32 := broadcastInDim S18x10x2 ![] bcast_S_S18x10x2 main_cst_12
  let main_v36 : IVec S18x10x2 1 := cmpf .olt main_v34 main_v35
  let main_c_13 : IVec S_ 1 := constantI S_ 1 1#1
  let main_v37 : IVec S_ 1 := (fun x v => Host.reduce IntOp.andi x v reducesTo_S18x10x2_S_d0_1_2 h_S_) main_v36 main_c_13
  let main_v38 : IVec S_ 1 := andi main_v33 main_v37
  main_v38

def fn_part1 {F : FTy → Type} [FloatOps F] (main_arg4 : FVec F S18x10x128x128 .f32) (main_arg5 : FVec F S18x10x128 .f32) (main_arg6 : FVec F S18x10x128x2 .f32) (main_arg7 : FVec F S18x10x2 .f32) (main_v13 : IVec S_ 1) (main_v16 : IVec S18x10x128 1) : IVec S_ 1 :=
  let main_c_5 : IVec S_ 1 := constantI S_ 1 1#1
  let main_v17 : IVec S_ 1 := (fun x v => Host.reduce IntOp.andi x v reducesTo_S18x10x128_S_d0_1_2 h_S_) main_v16 main_c_5
  let main_v18 : IVec S_ 1 := andi main_v13 main_v17
  let main_v19 : FVec F S18x10x128x128 .f32 := Host.absf main_arg4
  let main_cst_6 : FVec F S_ .f32 := constant S_ .f32 0x7F800000#32
  let main_v20 : FVec F S18x10x128x128 .f32 := broadcastInDim S18x10x128x128 ![] bcast_S_S18x10x128x128 main_cst_6
  let main_v21 : IVec S18x10x128x128 1 := cmpf .olt main_v19 main_v20
  let main_c_7 : IVec S_ 1 := constantI S_ 1 1#1
  let main_v22 : IVec S_ 1 := (fun x v => Host.reduce IntOp.andi x v reducesTo_S18x10x128x128_S_d0_1_2_3 h_S_) main_v21 main_c_7
  let main_v23 : IVec S_ 1 := andi main_v18 main_v22
  let main_v24 : FVec F S18x10x128 .f32 := Host.absf main_arg5
  let main_cst_8 : FVec F S_ .f32 := constant S_ .f32 0x7F800000#32
  let main_v25 : FVec F S18x10x128 .f32 := broadcastInDim S18x10x128 ![] bcast_S_S18x10x128 main_cst_8
  let main_v26 : IVec S18x10x128 1 := cmpf .olt main_v24 main_v25
  let main_c_9 : IVec S_ 1 := constantI S_ 1 1#1
  let main_v27 : IVec S_ 1 := (fun x v => Host.reduce IntOp.andi x v reducesTo_S18x10x128_S_d0_1_2 h_S_) main_v26 main_c_9
  let main_v28 : IVec S_ 1 := andi main_v23 main_v27
  let main_v29 : FVec F S18x10x128x2 .f32 := Host.absf main_arg6
  let main_cst_10 : FVec F S_ .f32 := constant S_ .f32 0x7F800000#32
  let main_v30 : FVec F S18x10x128x2 .f32 := broadcastInDim S18x10x128x2 ![] bcast_S_S18x10x128x2 main_cst_10
  let main_v31 : IVec S18x10x128x2 1 := cmpf .olt main_v29 main_v30
  let main_c_11 : IVec S_ 1 := constantI S_ 1 1#1
  let main_v32 : IVec S_ 1 := (fun x v => Host.reduce IntOp.andi x v reducesTo_S18x10x128x2_S_d0_1_2_3 h_S_) main_v31 main_c_11
  let main_v33 : IVec S_ 1 := andi main_v28 main_v32
  fn_part2 (F := F) main_arg7 main_v33

def fn {F : FTy → Type} [FloatOps F] (main_arg0 : FVec F S4096x23 .f32) (main_arg1 : FVec F S10x18x23 .f32) (main_arg2 : FVec F S18x10x23x128 .f32) (main_arg3 : FVec F S18x10x128 .f32) (main_arg4 : FVec F S18x10x128x128 .f32) (main_arg5 : FVec F S18x10x128 .f32) (main_arg6 : FVec F S18x10x128x2 .f32) (main_arg7 : FVec F S18x10x2 .f32) : IVec S_ 1 :=
  let main_v0 : FVec F S4096x23 .f32 := Host.absf main_arg0
  let main_cst : FVec F S_ .f32 := constant S_ .f32 0x7F800000#32
  let main_v1 : FVec F S4096x23 .f32 := broadcastInDim S4096x23 ![] bcast_S_S4096x23 main_cst
  let main_v2 : IVec S4096x23 1 := cmpf .olt main_v0 main_v1
  let main_c : IVec S_ 1 := constantI S_ 1 1#1
  let main_v3 : IVec S_ 1 := (fun x v => Host.reduce IntOp.andi x v reducesTo_S4096x23_S_d0_1 h_S_) main_v2 main_c
  let main_v4 : FVec F S10x18x23 .f32 := Host.absf main_arg1
  let main_cst_0 : FVec F S_ .f32 := constant S_ .f32 0x7F800000#32
  let main_v5 : FVec F S10x18x23 .f32 := broadcastInDim S10x18x23 ![] bcast_S_S10x18x23 main_cst_0
  let main_v6 : IVec S10x18x23 1 := cmpf .olt main_v4 main_v5
  let main_c_1 : IVec S_ 1 := constantI S_ 1 1#1
  let main_v7 : IVec S_ 1 := (fun x v => Host.reduce IntOp.andi x v reducesTo_S10x18x23_S_d0_1_2 h_S_) main_v6 main_c_1
  let main_v8 : IVec S_ 1 := andi main_v3 main_v7
  let main_v9 : FVec F S18x10x23x128 .f32 := Host.absf main_arg2
  let main_cst_2 : FVec F S_ .f32 := constant S_ .f32 0x7F800000#32
  let main_v10 : FVec F S18x10x23x128 .f32 := broadcastInDim S18x10x23x128 ![] bcast_S_S18x10x23x128 main_cst_2
  let main_v11 : IVec S18x10x23x128 1 := cmpf .olt main_v9 main_v10
  let main_c_3 : IVec S_ 1 := constantI S_ 1 1#1
  let main_v12 : IVec S_ 1 := (fun x v => Host.reduce IntOp.andi x v reducesTo_S18x10x23x128_S_d0_1_2_3 h_S_) main_v11 main_c_3
  let main_v13 : IVec S_ 1 := andi main_v8 main_v12
  let main_v14 : FVec F S18x10x128 .f32 := Host.absf main_arg3
  let main_cst_4 : FVec F S_ .f32 := constant S_ .f32 0x7F800000#32
  let main_v15 : FVec F S18x10x128 .f32 := broadcastInDim S18x10x128 ![] bcast_S_S18x10x128 main_cst_4
  let main_v16 : IVec S18x10x128 1 := cmpf .olt main_v14 main_v15
  fn_part1 (F := F) main_arg4 main_arg5 main_arg6 main_arg7 main_v13 main_v16
-- ==== Kernel.lean ====
abbrev S4096x23 : Shape := ⟨2, ![4096, 23]⟩
abbrev S10x18x23 : Shape := ⟨3, ![10, 18, 23]⟩
abbrev S18x10x23x128 : Shape := ⟨4, ![18, 10, 23, 128]⟩
abbrev S18x10x128 : Shape := ⟨3, ![18, 10, 128]⟩
abbrev S18x10x128x128 : Shape := ⟨4, ![18, 10, 128, 128]⟩
abbrev S18x10x128x2 : Shape := ⟨4, ![18, 10, 128, 2]⟩
abbrev S18x10x2 : Shape := ⟨3, ![18, 10, 2]⟩
abbrev S18x10x23 : Shape := ⟨3, ![18, 10, 23]⟩
abbrev S18x10x23x1 : Shape := ⟨4, ![18, 10, 23, 1]⟩
abbrev S180x23x128 : Shape := ⟨3, ![180, 23, 128]⟩
abbrev S180x1x128 : Shape := ⟨3, ![180, 1, 128]⟩
abbrev S180x128x128 : Shape := ⟨3, ![180, 128, 128]⟩
abbrev S180x128x2 : Shape := ⟨3, ![180, 128, 2]⟩
abbrev S180x1x2 : Shape := ⟨3, ![180, 1, 2]⟩
abbrev S180x2x4096 : Shape := ⟨3, ![180, 2, 4096]⟩
abbrev S10x23x128 : Shape := ⟨3, ![10, 23, 128]⟩
abbrev S10x1x128 : Shape := ⟨3, ![10, 1, 128]⟩
abbrev S10x128x128 : Shape := ⟨3, ![10, 128, 128]⟩
abbrev S10x128x2 : Shape := ⟨3, ![10, 128, 2]⟩
abbrev S10x1x2 : Shape := ⟨3, ![10, 1, 2]⟩
abbrev S10x2x4096 : Shape := ⟨3, ![10, 2, 4096]⟩
abbrev S1x23x128 : Shape := ⟨3, ![1, 23, 128]⟩
abbrev S23x128 : Shape := ⟨2, ![23, 128]⟩
abbrev S1x1x128 : Shape := ⟨3, ![1, 1, 128]⟩
abbrev S128 : Shape := ⟨1, ![128]⟩
abbrev S4096x128 : Shape := ⟨2, ![4096, 128]⟩
abbrev S1x128 : Shape := ⟨2, ![1, 128]⟩
abbrev S1x128x128 : Shape := ⟨3, ![1, 128, 128]⟩
abbrev S128x128 : Shape := ⟨2, ![128, 128]⟩
abbrev S1x128x2 : Shape := ⟨3, ![1, 128, 2]⟩
abbrev S128x2 : Shape := ⟨2, ![128, 2]⟩
abbrev S1x1x2 : Shape := ⟨3, ![1, 1, 2]⟩
abbrev S2 : Shape := ⟨1, ![2]⟩
abbrev S4096x2 : Shape := ⟨2, ![4096, 2]⟩
abbrev S1x2 : Shape := ⟨2, ![1, 2]⟩
abbrev S2x4096 : Shape := ⟨2, ![2, 4096]⟩
abbrev S1x4096 : Shape := ⟨2, ![1, 4096]⟩
abbrev S4096 : Shape := ⟨1, ![4096]⟩
abbrev S1x1x4096 : Shape := ⟨3, ![1, 1, 4096]⟩
abbrev S180x1x4096 : Shape := ⟨3, ![180, 1, 4096]⟩
abbrev S180x4096 : Shape := ⟨2, ![180, 4096]⟩
abbrev S18x10x4096x1 : Shape := ⟨4, ![18, 10, 4096, 1]⟩

abbrev nBuf : Space → Nat
  | .hbm => 28
  | .vmem => 15
  | .smem => 0
  | _ => 0

abbrev bufTy : (tb : Table) → Fin (tcTables nBuf tb) → BufTy
  | .hbm, ⟨0, _⟩ => ⟨S4096x23, .f32⟩
  | .hbm, ⟨1, _⟩ => ⟨S10x18x23, .f32⟩
  | .hbm, ⟨2, _⟩ => ⟨S18x10x23x128, .f32⟩
  | .hbm, ⟨3, _⟩ => ⟨S18x10x128, .f32⟩
  | .hbm, ⟨4, _⟩ => ⟨S18x10x128x128, .f32⟩
  | .hbm, ⟨5, _⟩ => ⟨S18x10x128, .f32⟩
  | .hbm, ⟨6, _⟩ => ⟨S18x10x128x2, .f32⟩
  | .hbm, ⟨7, _⟩ => ⟨S18x10x2, .f32⟩
  | .hbm, ⟨8, _⟩ => ⟨S18x10x23, .f32⟩
  | .hbm, ⟨9, _⟩ => ⟨S18x10x23x1, .f32⟩
  | .hbm, ⟨10, _⟩ => ⟨S18x10x23x128, .f32⟩
  | .hbm, ⟨11, _⟩ => ⟨S18x10x23x128, .f32⟩
  | .hbm, ⟨12, _⟩ => ⟨S180x23x128, .f32⟩
  | .hbm, ⟨13, _⟩ => ⟨S180x23x128, .bf16⟩
  | .hbm, ⟨14, _⟩ => ⟨S180x1x128, .f32⟩
  | .hbm, ⟨15, _⟩ => ⟨S180x128x128, .f32⟩
  | .hbm, ⟨16, _⟩ => ⟨S180x128x128, .bf16⟩
  | .hbm, ⟨17, _⟩ => ⟨S180x1x128, .f32⟩
  | .hbm, ⟨18, _⟩ => ⟨S180x128x2, .f32⟩
  | .hbm, ⟨19, _⟩ => ⟨S180x128x2, .bf16⟩
  | .hbm, ⟨20, _⟩ => ⟨S180x1x2, .f32⟩
  | .hbm, ⟨21, _⟩ => ⟨S180x2x4096, .f32⟩
  | .hbm, ⟨22, _⟩ => ⟨S180x1x4096, .f32⟩
  | .hbm, ⟨23, _⟩ => ⟨S180x4096, .f32⟩
  | .hbm, ⟨24, _⟩ => ⟨S18x10x4096x1, .f32⟩
  | .hbm, ⟨25, _⟩ => ⟨S180x1x4096, .f32⟩
  | .hbm, ⟨26, _⟩ => ⟨S180x4096, .f32⟩
  | .hbm, ⟨27, _⟩ => ⟨S18x10x4096x1, .f32⟩
  | .local _ .vmem, ⟨0, _⟩ => ⟨S4096x23, .f32⟩
  | .local _ .vmem, ⟨1, _⟩ => ⟨S10x23x128, .bf16⟩
  | .local _ .vmem, ⟨2, _⟩ => ⟨S10x23x128, .bf16⟩
  | .local _ .vmem, ⟨3, _⟩ => ⟨S10x1x128, .f32⟩
  | .local _ .vmem, ⟨4, _⟩ => ⟨S10x1x128, .f32⟩
  | .local _ .vmem, ⟨5, _⟩ => ⟨S10x128x128, .bf16⟩
  | .local _ .vmem, ⟨6, _⟩ => ⟨S10x128x128, .bf16⟩
  | .local _ .vmem, ⟨7, _⟩ => ⟨S10x1x128, .f32⟩
  | .local _ .vmem, ⟨8, _⟩ => ⟨S10x1x128, .f32⟩
  | .local _ .vmem, ⟨9, _⟩ => ⟨S10x128x2, .bf16⟩
  | .local _ .vmem, ⟨10, _⟩ => ⟨S10x128x2, .bf16⟩
  | .local _ .vmem, ⟨11, _⟩ => ⟨S10x1x2, .f32⟩
  | .local _ .vmem, ⟨12, _⟩ => ⟨S10x1x2, .f32⟩
  | .local _ .vmem, ⟨13, _⟩ => ⟨S10x2x4096, .f32⟩
  | .local _ .vmem, ⟨14, _⟩ => ⟨S10x2x4096, .f32⟩
  | _, _ => ⟨S4096x23, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![18], ![false]⟩

@[reducible] def k0_t1_loop : Scf.Loop 32 :=
  let c0_i32 : BitVec 32 := 0#32
  let c10_i32 : BitVec 32 := 10#32
  let v2 : BitVec 32 := Scalar.addi c0_i32 c10_i32
  let c1_i32 : BitVec 32 := 1#32
  ⟨c0_i32, v2, c1_i32⟩
def k0_off1 (k0_t1 : Fin k0_t1_loop.trips) : Fin 3 → Nat :=
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v3 : BitVec 32 := Scalar.muli arg9 c1_i32_2
  let v4 : BitVec 32 := Scalar.addi c0_i32_3 v3
  let v5 : Index := Scalar.indexCast v4
  let c0_4 : Index := 0#32
  let c0_5 : Index := 0#32
  ![v5.toNat, 0, 0]
def k0_off2 (k0_t1 : Fin k0_t1_loop.trips) : Fin 3 → Nat :=
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v3 : BitVec 32 := Scalar.muli arg9 c1_i32_2
  let v4 : BitVec 32 := Scalar.addi c0_i32_3 v3
  let v8 : Index := Scalar.indexCast v4
  let c0_6 : Index := 0#32
  let c0_7 : Index := 0#32
  ![v8.toNat, 0, 0]
def k0_off3 (k0_t1 : Fin k0_t1_loop.trips) : Fin 3 → Nat :=
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v3 : BitVec 32 := Scalar.muli arg9 c1_i32_2
  let v4 : BitVec 32 := Scalar.addi c0_i32_3 v3
  let v18 : Index := Scalar.indexCast v4
  let c0_8 : Index := 0#32
  let c0_9 : Index := 0#32
  ![v18.toNat, 0, 0]
def k0_off4 (k0_t1 : Fin k0_t1_loop.trips) : Fin 3 → Nat :=
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v3 : BitVec 32 := Scalar.muli arg9 c1_i32_2
  let v4 : BitVec 32 := Scalar.addi c0_i32_3 v3
  let v31 : Index := Scalar.indexCast v4
  let c0_13 : Index := 0#32
  let c0_14 : Index := 0#32
  ![v31.toNat, 0, 0]
def k0_off5 (k0_t1 : Fin k0_t1_loop.trips) : Fin 3 → Nat :=
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v3 : BitVec 32 := Scalar.muli arg9 c1_i32_2
  let v4 : BitVec 32 := Scalar.addi c0_i32_3 v3
  let v34 : Index := Scalar.indexCast v4
  let c0_15 : Index := 0#32
  let c0_16 : Index := 0#32
  ![v34.toNat, 0, 0]
def k0_off6 (k0_t1 : Fin k0_t1_loop.trips) : Fin 3 → Nat :=
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v3 : BitVec 32 := Scalar.muli arg9 c1_i32_2
  let v4 : BitVec 32 := Scalar.addi c0_i32_3 v3
  let v82 : Index := Scalar.indexCast v4
  let c0_26 : Index := 0#32
  let c0_27 : Index := 0#32
  ![v82.toNat, 0, 0]
def k0_off7 (k0_t1 : Fin k0_t1_loop.trips) : Fin 3 → Nat :=
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v3 : BitVec 32 := Scalar.muli arg9 c1_i32_2
  let v4 : BitVec 32 := Scalar.addi c0_i32_3 v3
  let v86 : Index := Scalar.indexCast v4
  let c1 : Index := 1#32
  let c0_28 : Index := 0#32
  ![v86.toNat, 1, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x23 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10x23x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10x128x2 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10x1x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10x2x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S10x18x23_S18x10x23_1_0_2 : S10x18x23.Transposes [1, 0, 2] S18x10x23
  bcast_S18x10x23_S18x10x23x1_0_1_2 : S18x10x23.BroadcastsInDim S18x10x23x1 (![0, 1, 2] : Fin 3 → Fin S18x10x23x1.rank)
  bcast_S18x10x23x1_S18x10x23x128_0_1_2_3 : S18x10x23x1.BroadcastsInDim S18x10x23x128 (![0, 1, 2, 3] : Fin 4 → Fin S18x10x23x128.rank)
  shapeCasts_S18x10x23x128_S180x23x128 : S18x10x23x128.ShapeCasts S180x23x128
  bitsLt_bf16_f32 : FTy.bits .bf16 < FTy.bits .f32
  shapeCasts_S18x10x128_S180x1x128 : S18x10x128.ShapeCasts S180x1x128
  shapeCasts_S18x10x128x128_S180x128x128 : S18x10x128x128.ShapeCasts S180x128x128
  shapeCasts_S18x10x128x2_S180x128x2 : S18x10x128x2.ShapeCasts S180x128x2
  shapeCasts_S18x10x2_S180x1x2 : S18x10x2.ShapeCasts S180x1x2
  inb_S4096x23_S4096x23_0_0 : ∀ a, (![0, 0] : Fin 2 → Nat) a + S4096x23.size a ≤ S4096x23.size a
  h_S4096x23 : 0 < S4096x23.numel
  h_S1x23x128 : 0 < S1x23x128.numel
  shapeCasts_S1x23x128_S23x128 : S1x23x128.ShapeCasts S23x128
  h_S1x1x128 : 0 < S1x1x128.numel
  shapeCasts_S1x1x128_S128 : S1x1x128.ShapeCasts S128
  shapeCasts_S128_S1x128 : S128.ShapeCasts S1x128
  broadcasts_S1x128_S4096x128 : S1x128.Broadcasts S4096x128
  h_S1x128x128 : 0 < S1x128x128.numel
  shapeCasts_S1x128x128_S128x128 : S1x128x128.ShapeCasts S128x128
  h_S1x128x2 : 0 < S1x128x2.numel
  shapeCasts_S1x128x2_S128x2 : S1x128x2.ShapeCasts S128x2
  h_S1x1x2 : 0 < S1x1x2.numel
  shapeCasts_S1x1x2_S2 : S1x1x2.ShapeCasts S2
  shapeCasts_S2_S1x2 : S2.ShapeCasts S1x2
  broadcasts_S1x2_S4096x2 : S1x2.Broadcasts S4096x2
  transposes_S4096x2_p1_0_S2x4096 : S4096x2.Transposes [1, 0] S2x4096
  slices_S2x4096_o0_0_S1x4096 : S2x4096.Slices ![0, 0] S1x4096
  shapeCasts_S1x4096_S4096 : S1x4096.ShapeCasts S4096
  slices_S2x4096_o1_0_S1x4096 : S2x4096.Slices ![1, 0] S1x4096
  h_S1x1x4096 : 0 < S1x1x4096.numel
  shapeCasts_S1x1x4096_S4096 : S1x1x4096.ShapeCasts S4096
  shapeCasts_S4096_S1x1x4096 : S4096.ShapeCasts S1x1x4096
  slices_S180x2x4096_S180x1x4096_0_0_0 : S180x2x4096.Slices ![0, 0, 0] S180x1x4096
  shapeCasts_S180x1x4096_S180x4096 : S180x1x4096.ShapeCasts S180x4096
  shapeCasts_S180x4096_S18x10x4096x1 : S180x4096.ShapeCasts S18x10x4096x1
  slices_S180x2x4096_S180x1x4096_0_1_0 : S180x2x4096.Slices ![0, 1, 0] S180x1x4096
  dot_S4096x23_S23x128_S4096x128_1_0_0_1_n_n_wf : DotDims.WF S4096x23 S23x128 S4096x128 [1] [0] [0] [1] [] []
  dot_S4096x128_S128x128_S4096x128_1_0_0_1_n_n_wf : DotDims.WF S4096x128 S128x128 S4096x128 [1] [0] [0] [1] [] []
  dot_S4096x128_S128x2_S4096x2_1_0_0_1_n_n_wf : DotDims.WF S4096x128 S128x2 S4096x2 [1] [0] [0] [1] [] []
  hrank0 : 0 < grid0.rank
  k0_t1_ok : k0_t1_loop.OK
  k0_off1_inb : ∀ k0_t1 : Fin k0_t1_loop.trips, ∀ a, (k0_off1 k0_t1) a + S1x23x128.size a ≤ S10x23x128.size a
  k0_off2_inb : ∀ k0_t1 : Fin k0_t1_loop.trips, ∀ a, (k0_off2 k0_t1) a + S1x1x128.size a ≤ S10x1x128.size a
  k0_off3_inb : ∀ k0_t1 : Fin k0_t1_loop.trips, ∀ a, (k0_off3 k0_t1) a + S1x128x128.size a ≤ S10x128x128.size a
  k0_off4_inb : ∀ k0_t1 : Fin k0_t1_loop.trips, ∀ a, (k0_off4 k0_t1) a + S1x128x2.size a ≤ S10x128x2.size a
  k0_off5_inb : ∀ k0_t1 : Fin k0_t1_loop.trips, ∀ a, (k0_off5 k0_t1) a + S1x1x2.size a ≤ S10x1x2.size a
  k0_off6_inb : ∀ k0_t1 : Fin k0_t1_loop.trips, ∀ a, (k0_off6 k0_t1) a + S1x1x4096.size a ≤ S10x2x4096.size a
  k0_off7_inb : ∀ k0_t1 : Fin k0_t1_loop.trips, ∀ a, (k0_off7 k0_t1) a + S1x1x4096.size a ≤ S10x2x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x23.size a ≤ S4096x23.size a
  hwx0_0 : ∀ i : grid0.Coords, EltTy.bits .f32 = 32 ∨ (Rect.block (s := S4096x23) S4096x23.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10x23x128.size a ≤ S180x23x128.size a
  hwx0_1 : ∀ i : grid0.Coords, EltTy.bits .bf16 = 32 ∨ (Rect.block (s := S180x23x128) S10x23x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x1x128.size a ≤ S180x1x128.size a
  hwx0_2 : ∀ i : grid0.Coords, EltTy.bits .f32 = 32 ∨ (Rect.block (s := S180x1x128) S10x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10x128x128.size a ≤ S180x128x128.size a
  hwx0_3 : ∀ i : grid0.Coords, EltTy.bits .bf16 = 32 ∨ (Rect.block (s := S180x128x128) S10x128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10x1x128.size a ≤ S180x1x128.size a
  hwx0_4 : ∀ i : grid0.Coords, EltTy.bits .f32 = 32 ∨ (Rect.block (s := S180x1x128) S10x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10x128x2.size a ≤ S180x128x2.size a
  hwx0_5 : ∀ i : grid0.Coords, EltTy.bits .bf16 = 32 ∨ (Rect.block (s := S180x128x2) S10x128x2.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10x1x2.size a ≤ S180x1x2.size a
  hwx0_6 : ∀ i : grid0.Coords, EltTy.bits .f32 = 32 ∨ (Rect.block (s := S180x1x2) S10x1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10x2x4096.size a ≤ S180x2x4096.size a
  hwx0_7 : ∀ i : grid0.Coords, EltTy.bits .f32 = 32 ∨ (Rect.block (s := S180x2x4096) S10x2x4096.size (cc0_transform_7 i) (hinb0_7 i)).WholeWords (EltTy.packing .f32)

variable [Facts₀]

def dot_S4096x23_S23x128_S4096x128_1_0_0_1_n_n : DotDims S4096x23 S23x128 S4096x128 where
  lhsContracting := [1]
  rhsContracting := [0]
  lhsNonContracting := [0]
  rhsNonContracting := [1]
  lhsBatch := []
  rhsBatch := []
  wf := dot_S4096x23_S23x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

abbrev win0_0 : Pipeline.Window sig grid0 :=
  Pipeline.Window.ofSpec (Memref.whole main_arg0) S4096x23.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10x23x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S10x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S10x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S10x128x2.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S10x1x2.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13) S10x2x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x23 : Shape := ⟨2, ![4096, 23]⟩
abbrev S10x18x23 : Shape := ⟨3, ![10, 18, 23]⟩
abbrev S18x10x23x128 : Shape := ⟨4, ![18, 10, 23, 128]⟩
abbrev S18x10x128 : Shape := ⟨3, ![18, 10, 128]⟩
abbrev S18x10x128x128 : Shape := ⟨4, ![18, 10, 128, 128]⟩
abbrev S18x10x128x2 : Shape := ⟨4, ![18, 10, 128, 2]⟩
abbrev S18x10x2 : Shape := ⟨3, ![18, 10, 2]⟩
abbrev S18x10x23 : Shape := ⟨3, ![18, 10, 23]⟩
abbrev S1x1x4096x23 : Shape := ⟨4, ![1, 1, 4096, 23]⟩
abbrev S18x10x1x23 : Shape := ⟨4, ![18, 10, 1, 23]⟩
abbrev S18x10x4096x23 : Shape := ⟨4, ![18, 10, 4096, 23]⟩
abbrev S18x10x4096x128 : Shape := ⟨4, ![18, 10, 4096, 128]⟩
abbrev S18x10x1x128 : Shape := ⟨4, ![18, 10, 1, 128]⟩
abbrev S_ : Shape := ⟨0, ![]⟩
abbrev S18x10x4096x2 : Shape := ⟨4, ![18, 10, 4096, 2]⟩
abbrev S18x10x1x2 : Shape := ⟨4, ![18, 10, 1, 2]⟩
abbrev S18x10x4096x1 : Shape := ⟨4, ![18, 10, 4096, 1]⟩

abbrev nBuf : Space → Nat
  | .hbm => 86
  | .vmem => 0
  | .smem => 0
  | _ => 0

abbrev bufTy : (tb : Table) → Fin (tcTables nBuf tb) → BufTy
  | .hbm, ⟨0, _⟩ => ⟨S4096x23, .f32⟩
  | .hbm, ⟨1, _⟩ => ⟨S10x18x23, .f32⟩
  | .hbm, ⟨2, _⟩ => ⟨S18x10x23x128, .f32⟩
  | .hbm, ⟨3, _⟩ => ⟨S18x10x128, .f32⟩
  | .hbm, ⟨4, _⟩ => ⟨S18x10x128x128, .f32⟩
  | .hbm, ⟨5, _⟩ => ⟨S18x10x128, .f32⟩
  | .hbm, ⟨6, _⟩ => ⟨S18x10x128x2, .f32⟩
  | .hbm, ⟨7, _⟩ => ⟨S18x10x2, .f32⟩
  | .hbm, ⟨8, _⟩ => ⟨S18x10x23, .f32⟩
  | .hbm, ⟨9, _⟩ => ⟨S1x1x4096x23, .f32⟩
  | .hbm, ⟨10, _⟩ => ⟨S18x10x1x23, .f32⟩
  | .hbm, ⟨11, _⟩ => ⟨S18x10x4096x23, .f32⟩
  | .hbm, ⟨12, _⟩ => ⟨S18x10x4096x23, .f32⟩
  | .hbm, ⟨13, _⟩ => ⟨S18x10x4096x23, .f32⟩
  | .hbm, ⟨14, _⟩ => ⟨S18x10x4096x128, .f32⟩
  | .hbm, ⟨15, _⟩ => ⟨S18x10x1x128, .f32⟩
  | .hbm, ⟨16, _⟩ => ⟨S18x10x4096x128, .f32⟩
  | .hbm, ⟨17, _⟩ => ⟨S18x10x4096x128, .f32⟩
  | .hbm, ⟨18, _⟩ => ⟨S18x10x4096x128, .f32⟩
  | .hbm, ⟨19, _⟩ => ⟨S18x10x4096x128, .f32⟩
  | .hbm, ⟨20, _⟩ => ⟨S_, .f32⟩
  | .hbm, ⟨21, _⟩ => ⟨S18x10x4096x128, .f32⟩
  | .hbm, ⟨22, _⟩ => ⟨S18x10x4096x128, .f32⟩
  | .hbm, ⟨23, _⟩ => ⟨S_, .f32⟩
  | .hbm, ⟨24, _⟩ => ⟨S18x10x4096x128, .f32⟩
  | .hbm, ⟨25, _⟩ => ⟨S18x10x4096x128, .f32⟩
  | .hbm, ⟨26, _⟩ => ⟨S18x10x4096x128, .f32⟩
  | .hbm, ⟨27, _⟩ => ⟨S18x10x4096x128, .f32⟩
  | .hbm, ⟨28, _⟩ => ⟨S18x10x1x128, .f32⟩
  | .hbm, ⟨29, _⟩ => ⟨S18x10x4096x128, .f32⟩
  | .hbm, ⟨30, _⟩ => ⟨S18x10x4096x128, .f32⟩
  | .hbm, ⟨31, _⟩ => ⟨S18x10x4096x128, .f32⟩
  | .hbm, ⟨32, _⟩ => ⟨S18x10x4096x128, .f32⟩
  | .hbm, ⟨33, _⟩ => ⟨S_, .f32⟩
  | .hbm, ⟨34, _⟩ => ⟨S18x10x4096x128, .f32⟩
  | .hbm, ⟨35, _⟩ => ⟨S18x10x4096x128, .f32⟩
  | .hbm, ⟨36, _⟩ => ⟨S_, .f32⟩
  | .hbm, ⟨37, _⟩ => ⟨S18x10x4096x128, .f32⟩
  | .hbm, ⟨38, _⟩ => ⟨S18x10x4096x128, .f32⟩
  | .hbm, ⟨39, _⟩ => ⟨S18x10x4096x128, .f32⟩
  | .hbm, ⟨40, _⟩ => ⟨S18x10x4096x2, .f32⟩
  | .hbm, ⟨41, _⟩ => ⟨S18x10x1x2, .f32⟩
  | .hbm, ⟨42, _⟩ => ⟨S18x10x4096x2, .f32⟩
  | .hbm, ⟨43, _⟩ => ⟨S18x10x4096x2, .f32⟩
  | .hbm, ⟨44, _⟩ => ⟨S18x10x4096x1, .f32⟩
  | .hbm, ⟨45, _⟩ => ⟨S18x10x4096x1, .f32⟩
  | .hbm, ⟨46, _⟩ => ⟨S_, .f32⟩
  | .hbm, ⟨47, _⟩ => ⟨S18x10x4096x1, .f32⟩
  | .hbm, ⟨48, _⟩ => ⟨S18x10x4096x1, .f32⟩
  | .hbm, ⟨49, _⟩ => ⟨S_, .f32⟩
  | .hbm, ⟨50, _⟩ => ⟨S18x10x4096x1, .f32⟩
  | .hbm, ⟨51, _⟩ => ⟨S18x10x4096x1, .f32⟩
  | .hbm, ⟨52, _⟩ => ⟨S18x10x4096x1, .f32⟩
  | .hbm, ⟨53, _⟩ => ⟨S18x10x4096x1, .f32⟩
  | .hbm, ⟨54, _⟩ => ⟨S18x10x4096x1, .i1⟩
  | .hbm, ⟨55, _⟩ => ⟨S18x10x4096x1, .f32⟩
  | .hbm, ⟨56, _⟩ => ⟨S18x10x4096x1, .f32⟩
  | .hbm, ⟨57, _⟩ => ⟨S18x10x4096x1, .f32⟩
  | .hbm, ⟨58, _⟩ => ⟨S18x10x4096x1, .f32⟩
  | .hbm, ⟨59, _⟩ => ⟨S18x10x4096x1, .f32⟩
  | .hbm, ⟨60, _⟩ => ⟨S18x10x4096x1, .f32⟩
  | .hbm, ⟨61, _⟩ => ⟨S18x10x4096x1, .f32⟩
  | .hbm, ⟨62, _⟩ => ⟨S18x10x4096x1, .f32⟩
  | .hbm, ⟨63, _⟩ => ⟨S_, .f32⟩
  | .hbm, ⟨64, _⟩ => ⟨S18x10x4096x1, .f32⟩
  | .hbm, ⟨65, _⟩ => ⟨S18x10x4096x1, .f32⟩
  | .hbm, ⟨66, _⟩ => ⟨S_, .f32⟩
  | .hbm, ⟨67, _⟩ => ⟨S18x10x4096x1, .f32⟩
  | .hbm, ⟨68, _⟩ => ⟨S18x10x4096x1, .f32⟩
  | .hbm, ⟨69, _⟩ => ⟨S_, .f32⟩
  | .hbm, ⟨70, _⟩ => ⟨S18x10x4096x1, .f32⟩
  | .hbm, ⟨71, _⟩ => ⟨S18x10x4096x1, .f32⟩
  | .hbm, ⟨72, _⟩ => ⟨S18x10x4096x1, .f32⟩
  | .hbm, ⟨73, _⟩ => ⟨S18x10x4096x1, .f32⟩
  | .hbm, ⟨74, _⟩ => ⟨S18x10x4096x1, .i1⟩
  | .hbm, ⟨75, _⟩ => ⟨S18x10x4096x1, .f32⟩
  | .hbm, ⟨76, _⟩ => ⟨S18x10x4096x1, .f32⟩
  | .hbm, ⟨77, _⟩ => ⟨S18x10x4096x1, .f32⟩
  | .hbm, ⟨78, _⟩ => ⟨S18x10x4096x1, .f32⟩
  | .hbm, ⟨79, _⟩ => ⟨S18x10x4096x1, .f32⟩
  | .hbm, ⟨80, _⟩ => ⟨S18x10x4096x1, .f32⟩
  | .hbm, ⟨81, _⟩ => ⟨S18x10x4096x1, .f32⟩
  | .hbm, ⟨82, _⟩ => ⟨S18x10x4096x1, .f32⟩
  | .hbm, ⟨83, _⟩ => ⟨S_, .f32⟩
  | .hbm, ⟨84, _⟩ => ⟨S18x10x4096x1, .f32⟩
  | .hbm, ⟨85, _⟩ => ⟨S18x10x4096x1, .f32⟩
  | _, _ => ⟨S4096x23, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_call2_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_v24 : Ref sig .tc := ⟨.hbm, 62, rfl⟩
abbrev main_cst_0 : Ref sig .tc := ⟨.hbm, 63, rfl⟩
abbrev main_v25 : Ref sig .tc := ⟨.hbm, 64, rfl⟩
abbrev main_v26 : Ref sig .tc := ⟨.hbm, 65, rfl⟩
abbrev main_cst_1 : Ref sig .tc := ⟨.hbm, 66, rfl⟩
abbrev main_v27 : Ref sig .tc := ⟨.hbm, 67, rfl⟩
abbrev main_v28 : Ref sig .tc := ⟨.hbm, 68, rfl⟩
abbrev main_call3_cst : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_v29 : Ref sig .tc := ⟨.hbm, 82, rfl⟩
abbrev main_cst_2 : Ref sig .tc := ⟨.hbm, 83, rfl⟩
abbrev main_v30 : Ref sig .tc := ⟨.hbm, 84, rfl⟩
abbrev main_v31 : Ref sig .tc := ⟨.hbm, 85, rfl⟩

abbrev nD : Nat := 1
abbrev τ : Topo := Topo.v7x

variable {F : FTy → Type} [FloatOps F]

class Facts₀ : Prop where
  transposes_S10x18x23_S18x10x23_1_0_2 : S10x18x23.Transposes [1, 0, 2] S18x10x23
  bcast_S4096x23_S1x1x4096x23_2_3 : S4096x23.BroadcastsInDim S1x1x4096x23 (![2, 3] : Fin 2 → Fin S1x1x4096x23.rank)
  bcast_S18x10x23_S18x10x1x23_0_1_3 : S18x10x23.BroadcastsInDim S18x10x1x23 (![0, 1, 3] : Fin 3 → Fin S18x10x1x23.rank)
  bcast_S1x1x4096x23_S18x10x4096x23_0_1_2_3 : S1x1x4096x23.BroadcastsInDim S18x10x4096x23 (![0, 1, 2, 3] : Fin 4 → Fin S18x10x4096x23.rank)
  bcast_S18x10x1x23_S18x10x4096x23_0_1_2_3 : S18x10x1x23.BroadcastsInDim S18x10x4096x23 (![0, 1, 2, 3] : Fin 4 → Fin S18x10x4096x23.rank)
  bcast_S18x10x128_S18x10x1x128_0_1_3 : S18x10x128.BroadcastsInDim S18x10x1x128 (![0, 1, 3] : Fin 3 → Fin S18x10x1x128.rank)
  bcast_S18x10x1x128_S18x10x4096x128_0_1_2_3 : S18x10x1x128.BroadcastsInDim S18x10x4096x128 (![0, 1, 2, 3] : Fin 4 → Fin S18x10x4096x128.rank)
  bcast_S_S18x10x4096x128 : S_.BroadcastsInDim S18x10x4096x128 (![] : Fin 0 → Fin S18x10x4096x128.rank)
  bcast_S18x10x2_S18x10x1x2_0_1_3 : S18x10x2.BroadcastsInDim S18x10x1x2 (![0, 1, 3] : Fin 3 → Fin S18x10x1x2.rank)
  bcast_S18x10x1x2_S18x10x4096x2_0_1_2_3 : S18x10x1x2.BroadcastsInDim S18x10x4096x2 (![0, 1, 2, 3] : Fin 4 → Fin S18x10x4096x2.rank)
  slices_S18x10x4096x2_S18x10x4096x1_0_0_0_0 : S18x10x4096x2.Slices ![0, 0, 0, 0] S18x10x4096x1
  slices_S18x10x4096x2_S18x10x4096x1_0_0_0_1 : S18x10x4096x2.Slices ![0, 0, 0, 1] S18x10x4096x1
  bcast_S_S18x10x4096x1 : S_.BroadcastsInDim S18x10x4096x1 (![] : Fin 0 → Fin S18x10x4096x1.rank)
  dot_S18x10x4096x23_S18x10x23x128_S18x10x4096x128_3_2_2_3_01_01_wf : DotDims.WF S18x10x4096x23 S18x10x23x128 S18x10x4096x128 [3] [2] [2] [3] [0, 1] [0, 1]
  dot_S18x10x4096x128_S18x10x128x128_S18x10x4096x128_3_2_2_3_01_01_wf : DotDims.WF S18x10x4096x128 S18x10x128x128 S18x10x4096x128 [3] [2] [2] [3] [0, 1] [0, 1]
  dot_S18x10x4096x128_S18x10x128x2_S18x10x4096x2_3_2_2_3_01_01_wf : DotDims.WF S18x10x4096x128 S18x10x128x2 S18x10x4096x2 [3] [2] [2] [3] [0, 1] [0, 1]

variable [Facts₀]

def dot_S18x10x4096x23_S18x10x23x128_S18x10x4096x128_3_2_2_3_01_01 : DotDims S18x10x4096x23 S18x10x23x128 S18x10x4096x128 where
  lhsContracting := [3]
  rhsContracting := [2]
  lhsNonContracting := [2]
  rhsNonContracting := [3]
  lhsBatch := [0, 1]
  rhsBatch := [0, 1]
  wf := dot_S18x10x4096x23_S18x10x23x128_S18x10x4096x128_3_2_2_3_01_01_wf
def dot_S18x10x4096x128_S18x10x128x128_S18x10x4096x128_3_2_2_3_01_01 : DotDims S18x10x4096x128 S18x10x128x128 S18x10x4096x128 where
  lhsContracting := [3]
  rhsContracting := [2]
  lhsNonContracting := [2]
  rhsNonContracting := [3]
  lhsBatch := [0, 1]
  rhsBatch := [0, 1]
  wf := dot_S18x10x4096x128_S18x10x128x128_S18x10x4096x128_3_2_2_3_01_01_wf
def dot_S18x10x4096x128_S18x10x128x2_S18x10x4096x2_3_2_2_3_01_01 : DotDims S18x10x4096x128 S18x10x128x2 S18x10x4096x2 where
  lhsContracting := [3]
  rhsContracting := [2]
  lhsNonContracting := [2]
  rhsNonContracting := [3]
  lhsBatch := [0, 1]
  rhsBatch := [0, 1]
  wf := dot_S18x10x4096x128_S18x10x128x2_S18x10x4096x2_3_2_2_3_01_01_wf

class Facts : Prop extends Facts₀ where

variable [Facts]
-- ==== Proof.KernelLoopPieces.lean ====
/-
  What the loop of the kernel body writes, trip by trip.

  Trip k stores two [1, 1, 4096] rows of the [10, 2, 4096] output block: row (k, 1) — the clamped second output of
  member k — and row (k, 0) — its first output —, both computed from the batch and from slab k of each weight and
  bias block.  Although the trip also loads those two rows back before it overwrites them, nothing it stores
  depends on what they held: the list of pieces the loop leaves is the same whatever the block held at loop entry.
-/
import proofs.«101378_j51470888075968_2_alg».proof.Proof.Gen.Kernel.Loops

noncomputable section

namespace Cert.Kernel.LoopPieces

open Cert.Kernel Cert.Kernel.Gen Idealize.ShloMosaic Idealize.ShloMosaic.TcCoe Idealize.SL.Sem

variable {F : FTy → Type} [FloatOps F]

section
variable (𝒱 : Variants) (c : Dev nD) (bd : Option 𝒱.V) (i : grid0.Coords) (arg1 : Memref sig .tc .vmem S4096x23 .f32) (harg1 : arg1.IsWhole) (arg2 : Memref sig .tc .vmem S10x23x128 .bf16) (harg2 : arg2.IsWhole) (arg3 : Memref sig .tc .vmem S10x1x128 .f32) (harg3 : arg3.IsWhole) (arg4 : Memref sig .tc .vmem S10x128x128 .bf16) (harg4 : arg4.IsWhole) (arg5 : Memref sig .tc .vmem S10x1x128 .f32) (harg5 : arg5.IsWhole) (arg6 : Memref sig .tc .vmem S10x128x2 .bf16) (harg6 : arg6.IsWhole) (arg7 : Memref sig .tc .vmem S10x1x2 .f32) (harg7 : arg7.IsWhole) (arg8 : Memref sig .tc .vmem S10x2x4096 .f32) (harg8 : arg8.IsWhole) (v0 : Vec F S4096x23 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)

/-- The two outputs of member k as the trip computes them: the transposed result's row 0, and its row 1. -/
abbrev row0 (k : Fin k0_t1_loop.trips) : FVec F S4096 .f32 :=
  k0_pay3 (k0_pay1 v0)
    (View.readAt (Elt F) arg2.view (Rect.unit (s := S10x23x128) (k0_off1 k) S1x23x128.size (k0_off1_inb k)).toLoadRect X_arg2)
    (View.readAt (Elt F) arg3.view (Rect.unit (s := S10x1x128) (k0_off2 k) S1x1x128.size (k0_off2_inb k)).toLoadRect X_arg3)
    (View.readAt (Elt F) arg4.view (Rect.unit (s := S10x128x128) (k0_off3 k) S1x128x128.size (k0_off3_inb k)).toLoadRect X_arg4)
    (View.readAt (Elt F) arg5.view (Rect.unit (s := S10x1x128) (k0_off2 k) S1x1x128.size (k0_off2_inb k)).toLoadRect X_arg5)
    (View.readAt (Elt F) arg6.view (Rect.unit (s := S10x128x2) (k0_off4 k) S1x128x2.size (k0_off4_inb k)).toLoadRect X_arg6)
    (View.readAt (Elt F) arg7.view (Rect.unit (s := S10x1x2) (k0_off5 k) S1x1x2.size (k0_off5_inb k)).toLoadRect X_arg7)
abbrev row1 (k : Fin k0_t1_loop.trips) : FVec F S1x4096 .f32 :=
  k0_pay4 (k0_pay1 v0)
    (View.readAt (Elt F) arg2.view (Rect.unit (s := S10x23x128) (k0_off1 k) S1x23x128.size (k0_off1_inb k)).toLoadRect X_arg2)
    (View.readAt (Elt F) arg3.view (Rect.unit (s := S10x1x128) (k0_off2 k) S1x1x128.size (k0_off2_inb k)).toLoadRect X_arg3)
    (View.readAt (Elt F) arg4.view (Rect.unit (s := S10x128x128) (k0_off3 k) S1x128x128.size (k0_off3_inb k)).toLoadRect X_arg4)
    (View.readAt (Elt F) arg5.view (Rect.unit (s := S10x1x128) (k0_off2 k) S1x1x128.size (k0_off2_inb k)).toLoadRect X_arg5)
    (View.readAt (Elt F) arg6.view (Rect.unit (s := S10x128x2) (k0_off4 k) S1x128x2.size (k0_off4_inb k)).toLoadRect X_arg6)
    (View.readAt (Elt F) arg7.view (Rect.unit (s := S10x1x2) (k0_off5 k) S1x1x2.size (k0_off5_inb k)).toLoadRect X_arg7)

/-- The two pieces trip k writes, newest first. -/
abbrev tripPieces (k : Fin k0_t1_loop.trips) : List (View.Piece (Elt F) S10x2x4096 .f32) :=
  [⟨Rect.unit (s := S10x2x4096) (k0_off7 k) S1x1x4096.size (k0_off7_inb k),
      k0_pay6 (row1 arg2 arg3 arg4 arg5 arg6 arg7 v0 X_arg2 X_arg3 X_arg4 X_arg5 X_arg6 X_arg7 k)⟩,
   ⟨Rect.unit (s := S10x2x4096) (k0_off6 k) S1x1x4096.size (k0_off6_inb k),
      k0_pay5 (row0 arg2 arg3 arg4 arg5 arg6 arg7 v0 X_arg2 X_arg3 X_arg4 X_arg5 X_arg6 X_arg7 k)⟩]

/-- A trip's pieces, whatever the output block held when the trip began. -/
theorem tripL_eq (k : Fin k0_t1_loop.trips) (f : BufTy.Contents (Elt F) arg8.view.ty) :
    tripL_k0_t1 (F := F) 𝒱 c bd i arg1 harg1 arg2 harg2 arg3 harg3 arg4 harg4 arg5 harg5 arg6 harg6 arg7 harg7 arg8 harg8 v0 X_arg2 X_arg3 X_arg4 X_arg5 X_arg6 X_arg7 k f
      = tripPieces arg2 arg3 arg4 arg5 arg6 arg7 v0 X_arg2 X_arg3 X_arg4 X_arg5 X_arg6 X_arg7 k := by
  unfold tripL_k0_t1
  unfold trip_k0_t1
  rfl

/-- The pieces of the trips before `n` do not depend on the block's contents at loop entry. -/
theorem pb_indep (G G' : BufTy.Contents (Elt F) arg8.view.ty) :
    ∀ n : ℕ, pb_k0_t1 (F := F) 𝒱 c bd i arg1 harg1 arg2 harg2 arg3 harg3 arg4 harg4 arg5 harg5 arg6 harg6 arg7 harg7 arg8 harg8 v0 X_arg2 X_arg3 X_arg4 X_arg5 X_arg6 X_arg7 G n = pb_k0_t1 (F := F) 𝒱 c bd i arg1 harg1 arg2 harg2 arg3 harg3 arg4 harg4 arg5 harg5 arg6 harg6 arg7 harg7 arg8 harg8 v0 X_arg2 X_arg3 X_arg4 X_arg5 X_arg6 X_arg7 G' n
  | 0 => by rw [pb_k0_t1.eq_1, pb_k0_t1.eq_1]
  | n + 1 => by
    rw [pb_k0_t1.eq_2, pb_k0_t1.eq_2, pb_indep G G' n]
    unfold pb_k0_t1Step
    split
    · rw [tripL_eq, tripL_eq]
    · rfl

/-- Every piece the loop leaves is one of some trip's two. -/
theorem mem_pb (G : BufTy.Contents (Elt F) arg8.view.ty) :
    ∀ (n : ℕ) (p : View.Piece (Elt F) S10x2x4096 .f32), p ∈ pb_k0_t1 (F := F) 𝒱 c bd i arg1 harg1 arg2 harg2 arg3 harg3 arg4 harg4 arg5 harg5 arg6 harg6 arg7 harg7 arg8 harg8 v0 X_arg2 X_arg3 X_arg4 X_arg5 X_arg6 X_arg7 G n →
      ∃ k : Fin k0_t1_loop.trips, p ∈ tripPieces arg2 arg3 arg4 arg5 arg6 arg7 v0 X_arg2 X_arg3 X_arg4 X_arg5 X_arg6 X_arg7 k
  | 0, p, h => by rw [pb_k0_t1.eq_1] at h; exact absurd h List.not_mem_nil
  | n + 1, p, h => by
    rw [pb_k0_t1.eq_2] at h
    unfold pb_k0_t1Step at h
    split at h
    · rename_i hn
      rcases List.mem_append.mp h with h | h
      · rw [tripL_eq] at h; exact ⟨⟨n, hn⟩, h⟩
      · exact mem_pb G n p h
    · exact mem_pb G n p h

end

end Cert.Kernel.LoopPieces

end
-- ==== Proof.KernelIdealLoopPieces.lean ====
/-
  What the loop of the kernel body writes, trip by trip.

  Trip k stores two [1, 1, 4096] rows of the [10, 2, 4096] output block: row (k, 1) — the clamped second output of
  member k — and row (k, 0) — its first output —, both computed from the batch and from slab k of each weight and
  bias block.  Although the trip also loads those two rows back before it overwrites them, nothing it stores
  depends on what they held: the list of pieces the loop leaves is the same whatever the block held at loop entry.
-/
import proofs.«101378_j51470888075968_2_alg».proof.Proof.Gen.KernelIdeal.Loops

noncomputable section

namespace Cert.KernelIdeal.LoopPieces

open Cert.KernelIdeal Cert.KernelIdeal.Gen Idealize.ShloMosaic Idealize.ShloMosaic.TcCoe Idealize.SL.Sem

variable {F : FTy → Type} [FloatOps F]

section
variable (𝒱 : Variants) (c : Dev nD) (bd : Option 𝒱.V) (i : grid0.Coords) (arg1 : Memref sig .tc .vmem S4096x23 .f32) (harg1 : arg1.IsWhole) (arg2 : Memref sig .tc .vmem S10x23x128 .bf16) (harg2 : arg2.IsWhole) (arg3 : Memref sig .tc .vmem S10x1x128 .f32) (harg3 : arg3.IsWhole) (arg4 : Memref sig .tc .vmem S10x128x128 .bf16) (harg4 : arg4.IsWhole) (arg5 : Memref sig .tc .vmem S10x1x128 .f32) (harg5 : arg5.IsWhole) (arg6 : Memref sig .tc .vmem S10x128x2 .bf16) (harg6 : arg6.IsWhole) (arg7 : Memref sig .tc .vmem S10x1x2 .f32) (harg7 : arg7.IsWhole) (arg8 : Memref sig .tc .vmem S10x2x4096 .f32) (harg8 : arg8.IsWhole) (v0 : Vec F S4096x23 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)

/-- The two outputs of member k as the trip computes them: the transposed result's row 0, and its row 1. -/
abbrev row0 (k : Fin k0_t1_loop.trips) : FVec F S4096 .f32 :=
  k0_pay3 (k0_pay1 v0)
    (View.readAt (Elt F) arg2.view (Rect.unit (s := S10x23x128) (k0_off1 k) S1x23x128.size (k0_off1_inb k)).toLoadRect X_arg2)
    (View.readAt (Elt F) arg3.view (Rect.unit (s := S10x1x128) (k0_off2 k) S1x1x128.size (k0_off2_inb k)).toLoadRect X_arg3)
    (View.readAt (Elt F) arg4.view (Rect.unit (s := S10x128x128) (k0_off3 k) S1x128x128.size (k0_off3_inb k)).toLoadRect X_arg4)
    (View.readAt (Elt F) arg5.view (Rect.unit (s := S10x1x128) (k0_off2 k) S1x1x128.size (k0_off2_inb k)).toLoadRect X_arg5)
    (View.readAt (Elt F) arg6.view (Rect.unit (s := S10x128x2) (k0_off4 k) S1x128x2.size (k0_off4_inb k)).toLoadRect X_arg6)
    (View.readAt (Elt F) arg7.view (Rect.unit (s := S10x1x2) (k0_off5 k) S1x1x2.size (k0_off5_inb k)).toLoadRect X_arg7)
abbrev row1 (k : Fin k0_t1_loop.trips) : FVec F S1x4096 .f32 :=
  k0_pay4 (k0_pay1 v0)
    (View.readAt (Elt F) arg2.view (Rect.unit (s := S10x23x128) (k0_off1 k) S1x23x128.size (k0_off1_inb k)).toLoadRect X_arg2)
    (View.readAt (Elt F) arg3.view (Rect.unit (s := S10x1x128) (k0_off2 k) S1x1x128.size (k0_off2_inb k)).toLoadRect X_arg3)
    (View.readAt (Elt F) arg4.view (Rect.unit (s := S10x128x128) (k0_off3 k) S1x128x128.size (k0_off3_inb k)).toLoadRect X_arg4)
    (View.readAt (Elt F) arg5.view (Rect.unit (s := S10x1x128) (k0_off2 k) S1x1x128.size (k0_off2_inb k)).toLoadRect X_arg5)
    (View.readAt (Elt F) arg6.view (Rect.unit (s := S10x128x2) (k0_off4 k) S1x128x2.size (k0_off4_inb k)).toLoadRect X_arg6)
    (View.readAt (Elt F) arg7.view (Rect.unit (s := S10x1x2) (k0_off5 k) S1x1x2.size (k0_off5_inb k)).toLoadRect X_arg7)

/-- The two pieces trip k writes, newest first. -/
abbrev tripPieces (k : Fin k0_t1_loop.trips) : List (View.Piece (Elt F) S10x2x4096 .f32) :=
  [⟨Rect.unit (s := S10x2x4096) (k0_off7 k) S1x1x4096.size (k0_off7_inb k),
      k0_pay6 (row1 arg2 arg3 arg4 arg5 arg6 arg7 v0 X_arg2 X_arg3 X_arg4 X_arg5 X_arg6 X_arg7 k)⟩,
   ⟨Rect.unit (s := S10x2x4096) (k0_off6 k) S1x1x4096.size (k0_off6_inb k),
      k0_pay5 (row0 arg2 arg3 arg4 arg5 arg6 arg7 v0 X_arg2 X_arg3 X_arg4 X_arg5 X_arg6 X_arg7 k)⟩]

/-- A trip's pieces, whatever the output block held when the trip began. -/
theorem tripL_eq (k : Fin k0_t1_loop.trips) (f : BufTy.Contents (Elt F) arg8.view.ty) :
    tripL_k0_t1 (F := F) 𝒱 c bd i arg1 harg1 arg2 harg2 arg3 harg3 arg4 harg4 arg5 harg5 arg6 harg6 arg7 harg7 arg8 harg8 v0 X_arg2 X_arg3 X_arg4 X_arg5 X_arg6 X_arg7 k f
      = tripPieces arg2 arg3 arg4 arg5 arg6 arg7 v0 X_arg2 X_arg3 X_arg4 X_arg5 X_arg6 X_arg7 k := by
  unfold tripL_k0_t1
  unfold trip_k0_t1
  rfl

/-- The pieces of the trips before `n` do not depend on the block's contents at loop entry. -/
theorem pb_indep (G G' : BufTy.Contents (Elt F) arg8.view.ty) :
    ∀ n : ℕ, pb_k0_t1 (F := F) 𝒱 c bd i arg1 harg1 arg2 harg2 arg3 harg3 arg4 harg4 arg5 harg5 arg6 harg6 arg7 harg7 arg8 harg8 v0 X_arg2 X_arg3 X_arg4 X_arg5 X_arg6 X_arg7 G n = pb_k0_t1 (F := F) 𝒱 c bd i arg1 harg1 arg2 harg2 arg3 harg3 arg4 harg4 arg5 harg5 arg6 harg6 arg7 harg7 arg8 harg8 v0 X_arg2 X_arg3 X_arg4 X_arg5 X_arg6 X_arg7 G' n
  | 0 => by rw [pb_k0_t1.eq_1, pb_k0_t1.eq_1]
  | n + 1 => by
    rw [pb_k0_t1.eq_2, pb_k0_t1.eq_2, pb_indep G G' n]
    unfold pb_k0_t1Step
    split
    · rw [tripL_eq, tripL_eq]
    · rfl

/-- Every piece the loop leaves is one of some trip's two. -/
theorem mem_pb (G : BufTy.Contents (Elt F) arg8.view.ty) :
    ∀ (n : ℕ) (p : View.Piece (Elt F) S10x2x4096 .f32), p ∈ pb_k0_t1 (F := F) 𝒱 c bd i arg1 harg1 arg2 harg2 arg3 harg3 arg4 harg4 arg5 harg5 arg6 harg6 arg7 harg7 arg8 harg8 v0 X_arg2 X_arg3 X_arg4 X_arg5 X_arg6 X_arg7 G n →
      ∃ k : Fin k0_t1_loop.trips, p ∈ tripPieces arg2 arg3 arg4 arg5 arg6 arg7 v0 X_arg2 X_arg3 X_arg4 X_arg5 X_arg6 X_arg7 k
  | 0, p, h => by rw [pb_k0_t1.eq_1] at h; exact absurd h List.not_mem_nil
  | n + 1, p, h => by
    rw [pb_k0_t1.eq_2] at h
    unfold pb_k0_t1Step at h
    split at h
    · rename_i hn
      rcases List.mem_append.mp h with h | h
      · rw [tripL_eq] at h; exact ⟨⟨n, hn⟩, h⟩
      · exact mem_pb G n p h
    · exact mem_pb G n p h

end

end Cert.KernelIdeal.LoopPieces

end
-- ==== Proof.MlpSpec.lean ====
/-
  One member of the ensemble, as mathematics over the extended reals.

  A member is a three-layer perceptron applied to one batch row.  With `s₁ g` the first layer's contraction
  (a sum over the 23 inputs) its result at output `o` is

      out o = Σ_h silu (Σ_g silu (s₁ g + c₁ g) · w₂ g h + c₂ h) · w₃ h o + c₃ o,   silu z = z · 1 / (1 + e^(−z)).

  The first output is the mean; the second is clamped into [−10, 5] by two soft-plus steps,

      clamp v = −10 + softplus ((5 − softplus (5 − v)) − (−10)),   softplus a = max a 0 + log (1 + e^(−|a|)).

  Both programs compute exactly this; they differ only in how the input mask enters `s₁`:
  Σ_i x_i · (m_i · w_i) on one side and Σ_i (x_i · m_i) · w_i on the other, equal term by term because
  multiplication of extended reals is associative.
-/
import Idealize.ShloMosaic.PureOps.Ideal
import Idealize.ShloMosaic.PureOps.Ideal.Laws
import Idealize.ShloMosaic.Lib.ValueIdx

noncomputable section

namespace Cert.Mlp

open Idealize.ShloMosaic
open scoped BigOperators

/-- The float words the two programs share: 0, 1, 5 and −10 (the last two are never evaluated). -/
abbrev w0 : EReal := Ideal.ofBits .f32 0x00000000#32
abbrev w1 : EReal := Ideal.ofBits .f32 0x3F800000#32
abbrev wHi : EReal := Ideal.ofBits .f32 0x40A00000#32
abbrev wLo : EReal := Ideal.ofBits .f32 0xC1200000#32

theorem w0_eq : w0 = 0 := Ideal.ofBits_zero_f32

/-- The word 0x3F800000 is the number one. -/
theorem w1_eq : w1 = 1 := by
  simp [w1, Ideal.ofBits, Ideal.ieee]
  rw [← EReal.coe_mul, ← EReal.coe_one]
  exact congrArg _ (by norm_num)

/-- silu: `z · logistic z`. -/
def act (z : EReal) : EReal := z * Ideal.logistic z

/-- silu spelt with a negation, an exponential, a sum and a quotient is the same function. -/
theorem act_expanded (z : EReal) : z * Ideal.div w1 (w1 + Ideal.exp (-z)) = act z := by
  rw [w1_eq]; rfl

/-- soft-plus in the guarded form both programs spell: the guard `δ ≠ δ` (with δ = a − 0) never fires. -/
def sp (a : EReal) : EReal :=
  Scalar.select (Ideal.cmp .one (a - w0) (a - w0)) (a + w0)
    (max a w0 + Ideal.log1p (Ideal.exp (w0 - max (a - w0) (-(a - w0)))))

/-- The same with the guard as an unordered comparison and the exponent as a negation. -/
theorem sp_host_form (a : EReal) :
    Scalar.select (Ideal.cmp .une (a - w0) (a - w0)) (a + w0)
      (max a w0 + Ideal.log1p (Ideal.exp (-(max (a - w0) (-(a - w0)))))) = sp a := by
  unfold sp
  rw [show Ideal.cmp .une (a - w0) (a - w0) = Ideal.cmp .one (a - w0) (a - w0) from rfl]
  congr 3
  rw [w0_eq, zero_sub]

/-- The clamp of the log-variance into [−10, 5]. -/
def clamp (v : EReal) : EReal := wLo + sp ((wHi - sp (wHi - v)) - wLo)

/-- Layers two and three of a member at one batch row, from the first layer's contraction `s₁`. -/
def out (s1 c1 : Fin 128 → EReal) (w2 : Fin 128 → Fin 128 → EReal) (c2 : Fin 128 → EReal)
    (w3 : Fin 128 → EReal) (c3 : EReal) : EReal :=
  (∑ h : Fin 128, act ((∑ g : Fin 128, act (s1 g + c1 g) * w2 g h) + c2 h) * w3 h) + c3

/-- The mask may be folded into the first layer's weights: multiplication is associative. -/
theorem mask_fold (x m : Fin 23 → EReal) (w : Fin 23 → EReal) :
    (∑ i : Fin 23, x i * (m i * w i)) = ∑ i : Fin 23, (x i * m i) * w i :=
  Finset.sum_congr rfl fun i _ => (mul_assoc (x i) (m i) (w i)).symm

end Cert.Mlp

end
-- ==== Proof.LibDenseLayer.lean ====
/-
  A dense layer read at an index, on the extended reals.

  For a [B, K] activation `a`, a weight slab `w` held as [1, K, N] and a bias held as [1, 1, N], the layer
  `a · w + bias` — a matrix product into a zero accumulator, the slab recast to [K, N], the bias recast to a row and
  repeated down the B rows — is, at row `b` and column `o`,

      Σ_k a (b, k) · w (0, k, o)  +  bias (0, 0, o).
-/
import Idealize.ShloMosaic.PureOps.Ideal.Laws
import Idealize.ShloMosaic.Lib.Pipeline.Value
import Idealize.ShloMosaic.Lib.ValueIdx

noncomputable section

namespace Idealize.ShloMosaic.ValueIdx

open Idealize.ShloMosaic
open scoped BigOperators

/-- A plain two-axis product into a zero accumulator is the sum over the contracted axis. The four hypotheses say
    which coordinate of each operand the dimension numbers take from the result index and which from the
    contraction position. -/
theorem matmul_zero_plain_apply {B K N : ℕ} {φ₁ φ₂ : FTy}
    (D : DotDims ⟨2, ![B, K]⟩ ⟨2, ![K, N]⟩ ⟨2, ![B, N]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![B, K]⟩ φ₁) (rhs : FVec Ideal ⟨2, ![K, N]⟩ φ₂) (b : Fin B) (o : Fin N) :
    matmul D prec lhs rhs (constant (F := Ideal) ⟨2, ![B, N]⟩ .f32 0x00000000#32) (ix2 b o)
      = ∑ k : Fin K, lhs (ix2 b k) * rhs (ix2 k o) := by
  refine (Ideal.matmul_constant_zero_apply D prec lhs rhs (ix2 b o)).trans ?_
  rw [← Equiv.sum_comp (contrEquiv1 D K hr hs).symm]
  refine Finset.sum_congr rfl fun k _ => ?_
  have hk := contrEquiv1_symm_val D K hr hs k
  have el : D.lhsIdx (ix2 b o) ((contrEquiv1 D K hr hs).symm k) = ix2 b k := funext fun a => Fin.ext (by
    match a with
    | ⟨0, _⟩ => exact hl0 _ _
    | ⟨1, _⟩ => exact (hl1 _ _).trans hk)
  have er : D.rhsIdx (ix2 b o) ((contrEquiv1 D K hr hs).symm k) = ix2 k o := funext fun a => Fin.ext (by
    match a with
    | ⟨0, _⟩ => exact (hr0 _ _).trans hk
    | ⟨1, _⟩ => exact hr1 _ _)
  rw [el, er]

variable {α : Type}

/-- A [1, K, N] slab recast to [K, N]: entry (k, o) is entry (0, k, o). -/
theorem shapeCast_slab_apply {K N : ℕ} (w : (⟨3, ![1, K, N]⟩ : Shape).Idx → α)
    (h : (⟨3, ![1, K, N]⟩ : Shape).ShapeCasts ⟨2, ![K, N]⟩) (z : Fin 1) (k : Fin K) (o : Fin N) :
    shapeCast ⟨2, ![K, N]⟩ w h (ix2 k o) = w (ix3 z k o) :=
  shapeCast_apply w h _ _ (by
    rw [Shape.rowMajor_val_three, Shape.rowMajor_val_two]
    show (z.val * K + k.val) * N + o.val = k.val * N + o.val
    have hz : z.val = 0 := by have := z.isLt; omega
    rw [hz, Nat.zero_mul, Nat.zero_add])

/-- A [1, 1, N] bias recast to [N], then to a [1, N] row, then repeated down B rows: entry (b, o) is entry (0, 0, o). -/
theorem bias_rows_apply {B N : ℕ} (c : (⟨3, ![1, 1, N]⟩ : Shape).Idx → α)
    (h1 : (⟨3, ![1, 1, N]⟩ : Shape).ShapeCasts ⟨1, ![N]⟩) (h2 : (⟨1, ![N]⟩ : Shape).ShapeCasts ⟨2, ![1, N]⟩)
    (h3 : (⟨2, ![1, N]⟩ : Shape).Broadcasts ⟨2, ![B, N]⟩) (z z' : Fin 1) (b : Fin B) (o : Fin N) :
    broadcastTo ⟨2, ![B, N]⟩ (shapeCast ⟨2, ![1, N]⟩ (shapeCast ⟨1, ![N]⟩ c h1) h2) h3 (ix2 b o) = c (ix3 z z' o) := by
  have hz : z.val = 0 := by have := z.isLt; omega
  have hz' : z'.val = 0 := by have := z'.isLt; omega
  refine (broadcastTo_apply _ h3 (ix2 b o) (ix2 (0 : Fin 1) o) (fun a => ?_)).trans ?_
  · match a with
    | ⟨0, _⟩ => show (0 : ℕ) = if (1 : ℕ) = 1 then 0 else _; rw [if_pos rfl]
    | ⟨1, _⟩ =>
      show o.val = if N = 1 then 0 else o.val
      split
      · have := o.isLt; omega
      · rfl
  refine (shapeCast_apply _ h2 _ (ix1 o) (by
    rw [Shape.rowMajor_val_one, Shape.rowMajor_val_two]
    show o.val = (0 : Fin 1).val * N + o.val
    simp)).trans ?_
  exact shapeCast_apply c h1 _ _ (by
    rw [Shape.rowMajor_val_three, Shape.rowMajor_val_one]
    show (z.val * 1 + z'.val) * N + o.val = o.val
    simp [hz, hz'])

/-- The dense layer at (b, o). -/
theorem dense_apply {B K N : ℕ} {φ₁ φ₂ : FTy}
    (D : DotDims ⟨2, ![B, K]⟩ ⟨2, ![K, N]⟩ ⟨2, ![B, N]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (a : FVec Ideal ⟨2, ![B, K]⟩ φ₁) (w : FVec Ideal ⟨3, ![1, K, N]⟩ φ₂) (c : FVec Ideal ⟨3, ![1, 1, N]⟩ .f32)
    (hw : (⟨3, ![1, K, N]⟩ : Shape).ShapeCasts ⟨2, ![K, N]⟩)
    (h1 : (⟨3, ![1, 1, N]⟩ : Shape).ShapeCasts ⟨1, ![N]⟩) (h2 : (⟨1, ![N]⟩ : Shape).ShapeCasts ⟨2, ![1, N]⟩)
    (h3 : (⟨2, ![1, N]⟩ : Shape).Broadcasts ⟨2, ![B, N]⟩) (b : Fin B) (o : Fin N) :
    addf (matmul D prec a (shapeCast ⟨2, ![K, N]⟩ w hw) (constant (F := Ideal) ⟨2, ![B, N]⟩ .f32 0x00000000#32))
        (broadcastTo ⟨2, ![B, N]⟩ (shapeCast ⟨2, ![1, N]⟩ (shapeCast ⟨1, ![N]⟩ c h1) h2) h3) (ix2 b o)
      = (∑ k : Fin K, a (ix2 b k) * w (ix3 (0 : Fin 1) k o)) + c (ix3 (0 : Fin 1) (0 : Fin 1) o) := by
  show matmul D prec a (shapeCast ⟨2, ![K, N]⟩ w hw) (constant (F := Ideal) ⟨2, ![B, N]⟩ .f32 0x00000000#32) (ix2 b o)
      + broadcastTo ⟨2, ![B, N]⟩ (shapeCast ⟨2, ![1, N]⟩ (shapeCast ⟨1, ![N]⟩ c h1) h2) h3 (ix2 b o) = _
  rw [matmul_zero_plain_apply D prec hr hs hl0 hl1 hr0 hr1, bias_rows_apply c h1 h2 h3 0 0 b o]
  refine congrArg (· + _) (Finset.sum_congr rfl fun k _ => ?_)
  rw [shapeCast_slab_apply w hw 0 k o]

end Idealize.ShloMosaic.ValueIdx

end
-- ==== Proof.KernelTrip.lean ====
/-
  What one trip of the kernel's loop stores.

  Trip k of the body at a grid point takes the whole batch x (4096 rows of 23 inputs), the k-th slab of each
  weight block and the k-th row of each bias block, and computes one ensemble member for every batch row: three
  dense layers with silu between them.  The [4096, 2] result is transposed; its row 0 (the means) is stored as it is
  and its row 1 (the log-variances) after the clamp.  Read at batch row b these are `Mlp.out` at output 0 and
  `Mlp.clamp` of `Mlp.out` at output 1, with the first layer's contraction Σ_i x (b, i) · w₁ (0, i, g).
-/
import proofs.«101378_j51470888075968_2_alg».proof.Proof.Gen.KernelIdeal.Skeleton
import proofs.«101378_j51470888075968_2_alg».proof.Proof.MlpSpec
import proofs.«101378_j51470888075968_2_alg».proof.Proof.LibDenseLayer

noncomputable section

namespace Cert.KernelIdeal.Trip

open Cert.KernelIdeal Cert.KernelIdeal.Gen Idealize.ShloMosaic Idealize.ShloMosaic.ValueIdx
open scoped BigOperators

/-! ### The three products' dimension numbers: rows of the left operand, columns of the right, one contracted axis -/

theorem D1_l0 (j : S4096x128.Idx) (q : dot_S4096x23_S23x128_S4096x128_1_0_0_1_n_n.contr.Idx) : (dot_S4096x23_S23x128_S4096x128_1_0_0_1_n_n.lhsIdx j q 0).val = (j 0).val := by
  unfold DotDims.lhsIdx
  rw [dif_neg (show ¬(0 : Fin S4096x23.rank) ∈ dot_S4096x23_S23x128_S4096x128_1_0_0_1_n_n.lhsBatch by decide), dif_pos (show (0 : Fin S4096x23.rank) ∈ dot_S4096x23_S23x128_S4096x128_1_0_0_1_n_n.lhsNonContracting by decide)]
  rfl
theorem D1_l1 (j : S4096x128.Idx) (q : dot_S4096x23_S23x128_S4096x128_1_0_0_1_n_n.contr.Idx) : (dot_S4096x23_S23x128_S4096x128_1_0_0_1_n_n.lhsIdx j q 1).val = (q ⟨0, by decide⟩).val :=
  dot_S4096x23_S23x128_S4096x128_1_0_0_1_n_n.lhsIdx_val_of_single rfl j q
theorem D1_r0 (j : S4096x128.Idx) (q : dot_S4096x23_S23x128_S4096x128_1_0_0_1_n_n.contr.Idx) : (dot_S4096x23_S23x128_S4096x128_1_0_0_1_n_n.rhsIdx j q 0).val = (q ⟨0, by decide⟩).val :=
  dot_S4096x23_S23x128_S4096x128_1_0_0_1_n_n.rhsIdx_val_of_single rfl j q
theorem D1_r1 (j : S4096x128.Idx) (q : dot_S4096x23_S23x128_S4096x128_1_0_0_1_n_n.contr.Idx) : (dot_S4096x23_S23x128_S4096x128_1_0_0_1_n_n.rhsIdx j q 1).val = (j 1).val := by
  unfold DotDims.rhsIdx
  rw [dif_neg (show ¬(1 : Fin S23x128.rank) ∈ dot_S4096x23_S23x128_S4096x128_1_0_0_1_n_n.rhsBatch by decide), dif_pos (show (1 : Fin S23x128.rank) ∈ dot_S4096x23_S23x128_S4096x128_1_0_0_1_n_n.rhsNonContracting by decide)]
  rfl

theorem D2_l0 (j : S4096x128.Idx) (q : dot_S4096x128_S128x128_S4096x128_1_0_0_1_n_n.contr.Idx) : (dot_S4096x128_S128x128_S4096x128_1_0_0_1_n_n.lhsIdx j q 0).val = (j 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem D2_l1 (j : S4096x128.Idx) (q : dot_S4096x128_S128x128_S4096x128_1_0_0_1_n_n.contr.Idx) : (dot_S4096x128_S128x128_S4096x128_1_0_0_1_n_n.lhsIdx j q 1).val = (q ⟨0, by decide⟩).val :=
  dot_S4096x128_S128x128_S4096x128_1_0_0_1_n_n.lhsIdx_val_of_single rfl j q
theorem D2_r0 (j : S4096x128.Idx) (q : dot_S4096x128_S128x128_S4096x128_1_0_0_1_n_n.contr.Idx) : (dot_S4096x128_S128x128_S4096x128_1_0_0_1_n_n.rhsIdx j q 0).val = (q ⟨0, by decide⟩).val :=
  dot_S4096x128_S128x128_S4096x128_1_0_0_1_n_n.rhsIdx_val_of_single rfl j q
theorem D2_r1 (j : S4096x128.Idx) (q : dot_S4096x128_S128x128_S4096x128_1_0_0_1_n_n.contr.Idx) : (dot_S4096x128_S128x128_S4096x128_1_0_0_1_n_n.rhsIdx j q 1).val = (j 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

theorem D3_l0 (j : S4096x2.Idx) (q : dot_S4096x128_S128x2_S4096x2_1_0_0_1_n_n.contr.Idx) : (dot_S4096x128_S128x2_S4096x2_1_0_0_1_n_n.lhsIdx j q 0).val = (j 0).val := by
  unfold DotDims.lhsIdx
  rw [dif_neg (show ¬(0 : Fin S4096x128.rank) ∈ dot_S4096x128_S128x2_S4096x2_1_0_0_1_n_n.lhsBatch by decide), dif_pos (show (0 : Fin S4096x128.rank) ∈ dot_S4096x128_S128x2_S4096x2_1_0_0_1_n_n.lhsNonContracting by decide)]
  rfl
theorem D3_l1 (j : S4096x2.Idx) (q : dot_S4096x128_S128x2_S4096x2_1_0_0_1_n_n.contr.Idx) : (dot_S4096x128_S128x2_S4096x2_1_0_0_1_n_n.lhsIdx j q 1).val = (q ⟨0, by decide⟩).val :=
  dot_S4096x128_S128x2_S4096x2_1_0_0_1_n_n.lhsIdx_val_of_single rfl j q
theorem D3_r0 (j : S4096x2.Idx) (q : dot_S4096x128_S128x2_S4096x2_1_0_0_1_n_n.contr.Idx) : (dot_S4096x128_S128x2_S4096x2_1_0_0_1_n_n.rhsIdx j q 0).val = (q ⟨0, by decide⟩).val :=
  dot_S4096x128_S128x2_S4096x2_1_0_0_1_n_n.rhsIdx_val_of_single rfl j q
theorem D3_r1 (j : S4096x2.Idx) (q : dot_S4096x128_S128x2_S4096x2_1_0_0_1_n_n.contr.Idx) : (dot_S4096x128_S128x2_S4096x2_1_0_0_1_n_n.rhsIdx j q 1).val = (j 1).val := by
  unfold DotDims.rhsIdx
  rw [dif_neg (show ¬(1 : Fin S128x2.rank) ∈ dot_S4096x128_S128x2_S4096x2_1_0_0_1_n_n.rhsBatch by decide), dif_pos (show (1 : Fin S128x2.rank) ∈ dot_S4096x128_S128x2_S4096x2_1_0_0_1_n_n.rhsNonContracting by decide)]
  rfl

/-- silu, rounded to the narrower format (the identity here), at an index. -/
theorem silu_apply {s : Shape} (z : FVec Ideal s .f32) (h : FTy.bf16.bits < FTy.f32.bits) (i : s.Idx) :
    (truncf .bf16 (mulf z (logistic z)) h : FVec Ideal s .bf16) i = Cert.Mlp.act (z i) := rfl

section
variable (v1 : FVec Ideal S4096x23 .bf16) (v6 : Vec Ideal S1x23x128 .bf16) (v9 : Vec Ideal S1x1x128 .f32)
  (v19 : Vec Ideal S1x128x128 .bf16) (v22 : Vec Ideal S1x1x128 .f32) (v32 : Vec Ideal S1x128x2 .bf16) (v35 : Vec Ideal S1x1x2 .f32)

/-- A member's output `o` at batch row `b`, from the trip's loads. -/
def member (o : Fin 2) (b : Fin 4096) : EReal :=
  Cert.Mlp.out (fun g => ∑ i : Fin 23, v1 (ix2 b i) * v6 (ix3 (0 : Fin 1) i g)) (fun g => v9 (ix3 (0 : Fin 1) (0 : Fin 1) g))
    (fun g h => v19 (ix3 (0 : Fin 1) g h)) (fun h => v22 (ix3 (0 : Fin 1) (0 : Fin 1) h))
    (fun h => v32 (ix3 (0 : Fin 1) h o)) (v35 (ix3 (0 : Fin 1) (0 : Fin 1) o))

/-- The transposed [2, 4096] result of the three layers, at (o, b). -/
theorem pay2_apply (o : Fin 2) (b : Fin 4096) :
    k0_pay2 (F := Ideal) v1 v6 v9 v19 v22 v32 v35 (ix2 o b) = member v1 v6 v9 v19 v22 v32 v35 o b := by
  unfold k0_pay2 member Cert.Mlp.out
  dsimp only
  refine (transpose_apply [1, 0] _ _ (ix2 o b) (ix2 b o) (fun a => match a with | ⟨0, _⟩ => rfl | ⟨1, _⟩ => rfl)).trans ?_
  refine (dense_apply dot_S4096x128_S128x2_S4096x2_1_0_0_1_n_n none rfl rfl D3_l0 D3_l1 D3_r0 D3_r1 _ v32 v35 _ _ _ _ b o).trans ?_
  refine congrArg (· + _) (Finset.sum_congr rfl fun h _ => congrArg (· * _) ?_)
  refine (silu_apply _ _ _).trans (congrArg Cert.Mlp.act ?_)
  refine (dense_apply dot_S4096x128_S128x128_S4096x128_1_0_0_1_n_n none rfl rfl D2_l0 D2_l1 D2_r0 D2_r1 _ v19 v22 _ _ _ _ b h).trans ?_
  refine congrArg (· + _) (Finset.sum_congr rfl fun g _ => congrArg (· * _) ?_)
  refine (silu_apply _ _ _).trans (congrArg Cert.Mlp.act ?_)
  exact dense_apply dot_S4096x23_S23x128_S4096x128_1_0_0_1_n_n none rfl rfl D1_l0 D1_l1 D1_r0 D1_r1 v1 v6 v9 _ _ _ _ b g

/-- Row 0 of the transposed result, as the [1, 1, 4096] piece the trip stores first: the means. -/
theorem mean_piece_apply (b : Fin 4096) :
    k0_pay5 (F := Ideal) (k0_pay3 v1 v6 v9 v19 v22 v32 v35) (ix3 (0 : Fin 1) (0 : Fin 1) b) = member v1 v6 v9 v19 v22 v32 v35 0 b := by
  unfold k0_pay5 k0_pay3
  refine (shapeCast_apply _ _ _ (ix1 b) (by
    rw [Shape.rowMajor_val_one, Shape.rowMajor_val_three]; simp)).trans ?_
  refine (shapeCast_apply _ _ _ (ix2 (0 : Fin 1) b) (by
    rw [Shape.rowMajor_val_two, Shape.rowMajor_val_one]; simp)).trans ?_
  refine (extractStridedSlice_apply _ _ _ _ (ix2 (0 : Fin 2) b) (fun a => match a with | ⟨0, _⟩ => rfl | ⟨1, _⟩ => by simp)).trans ?_
  exact pay2_apply v1 v6 v9 v19 v22 v32 v35 0 b

/-- The clamp applied along a vector, then recast to a [1, 1, 4096] piece. -/
theorem clamp_piece_apply (v44 : FVec Ideal S1x4096 .f32) (b : Fin 4096) :
    k0_pay6 (F := Ideal) v44 (ix3 (0 : Fin 1) (0 : Fin 1) b) = Cert.Mlp.clamp (v44 (ix2 (0 : Fin 1) b)) := by
  unfold k0_pay6
  refine (shapeCast_apply _ _ _ (ix1 b) (by
    rw [Shape.rowMajor_val_one, Shape.rowMajor_val_three]; simp)).trans ?_
  have e : shapeCast S4096 v44 shapeCasts_S1x4096_S4096 (ix1 b) = v44 (ix2 (0 : Fin 1) b) :=
    shapeCast_apply _ _ _ _ (by rw [Shape.rowMajor_val_two, Shape.rowMajor_val_one]; simp)
  rw [← e]
  rfl

/-- Row 1 of the transposed result after the clamp, as the piece the trip stores second: the log-variances. -/
theorem logvar_piece_apply (b : Fin 4096) :
    k0_pay6 (F := Ideal) (k0_pay4 v1 v6 v9 v19 v22 v32 v35) (ix3 (0 : Fin 1) (0 : Fin 1) b)
      = Cert.Mlp.clamp (member v1 v6 v9 v19 v22 v32 v35 1 b) := by
  rw [clamp_piece_apply]
  refine congrArg Cert.Mlp.clamp ?_
  unfold k0_pay4
  refine (extractStridedSlice_apply _ _ _ _ (ix2 (1 : Fin 2) b) (fun a => match a with | ⟨0, _⟩ => rfl | ⟨1, _⟩ => by simp)).trans ?_
  exact pay2_apply v1 v6 v9 v19 v22 v32 v35 1 b

end

end Cert.KernelIdeal.Trip

end
-- ==== Proof.KernelBlock.lean ====
/-
  What the kernel body leaves in its output block.

  At a grid point the body is handed the whole batch `x₀`, a block of ten members' weight slabs `x₁, x₃, x₅` and bias
  rows `x₂, x₄, x₆`, and fills a [10, 2, 4096] block: entry (k, 0, b) is the first output of member k at batch row b,
  entry (k, 1, b) the clamp of its second output.  Every piece any trip stores is the restriction of this one
  function of the block index, so the block, read back after all the stores, is that function.
-/
import proofs.«101378_j51470888075968_2_alg».proof.Proof.KernelIdealFramePatched
import proofs.«101378_j51470888075968_2_alg».proof.Proof.KernelTrip
import Idealize.ShloMosaic.Lib.WholeRead
import Idealize.ShloMosaic.Lib.Writes

noncomputable section

namespace Cert.KernelIdeal.Block

open Cert.KernelIdeal Cert.KernelIdeal.Gen Idealize.ShloMosaic Idealize.ShloMosaic.TcCoe Idealize.ShloMosaic.ValueIdx
open Idealize.SL.Sem
open scoped BigOperators

/-! ### Loads of one slab of a block, and of the whole batch -/

/-- A [1, n, m] load at slab `k` of a [10, n, m] buffer held whole at the contents `X` reads `X (k, i, g)`. -/
theorem readAt_slab {n m : ℕ} {e : EltTy} (M : Memref sig .tc .vmem ⟨3, ![10, n, m]⟩ e) (hM : M.IsWhole)
    (X : (⟨3, ![10, n, m]⟩ : Shape).Idx → Elt Ideal e) (off : Fin 3 → ℕ)
    (inb : ∀ a, off a + (⟨3, ![1, n, m]⟩ : Shape).size a ≤ (⟨3, ![10, n, m]⟩ : Shape).size a)
    (k : ℕ) (hk : k < 10) (hoff : off = ![k, 0, 0]) (z : Fin 1) (i : Fin n) (g : Fin m) :
    View.readAt (Elt Ideal) M.view (Rect.unit (s := ⟨3, ![10, n, m]⟩) off (⟨3, ![1, n, m]⟩ : Shape).size inb).toLoadRect
        (hM.unread X) (ix3 z i g) = X (ix3 ⟨k, hk⟩ i g) := by
  subst hoff
  rw [hM.readAt_unread]
  refine congrArg X (funext fun a => Fin.ext ?_)
  rw [LoadRect.idx_apply]
  match a with
  | ⟨0, _⟩ => show k + 1 * z.val = k; have := z.isLt; omega
  | ⟨1, _⟩ => show 0 + 1 * i.val = i.val; omega
  | ⟨2, _⟩ => show 0 + 1 * g.val = g.val; omega

/-- A load of a whole [B, n] buffer held at `X` reads `X`. -/
theorem readAt_all {B n : ℕ} {e : EltTy} (M : Memref sig .tc .vmem ⟨2, ![B, n]⟩ e) (hM : M.IsWhole)
    (X : (⟨2, ![B, n]⟩ : Shape).Idx → Elt Ideal e)
    (inb : ∀ a, (![0, 0] : Fin 2 → ℕ) a + (⟨2, ![B, n]⟩ : Shape).size a ≤ (⟨2, ![B, n]⟩ : Shape).size a) (b : Fin B) (i : Fin n) :
    View.readAt (Elt Ideal) M.view (Rect.unit (s := ⟨2, ![B, n]⟩) ![0, 0] (⟨2, ![B, n]⟩ : Shape).size inb).toLoadRect
        (hM.unread X) (ix2 b i) = X (ix2 b i) := by
  rw [hM.readAt_unread]
  refine congrArg X (funext fun a => Fin.ext ?_)
  rw [LoadRect.idx_apply]
  match a with
  | ⟨0, _⟩ => show 0 + 1 * b.val = b.val; omega
  | ⟨1, _⟩ => show 0 + 1 * i.val = i.val; omega

/-! ### The block as one function of its index -/

section
variable (x0 : Vec Ideal S4096x23 .f32) (x1 : Vec Ideal S10x23x128 .bf16) (x2 : Vec Ideal S10x1x128 .f32)
  (x3 : Vec Ideal S10x128x128 .bf16) (x4 : Vec Ideal S10x1x128 .f32) (x5 : Vec Ideal S10x128x2 .bf16) (x6 : Vec Ideal S10x1x2 .f32)

/-- Output `o` of member `k` of the block at batch row `b`. -/
def blockMember (k : Fin 10) (o : Fin 2) (b : Fin 4096) : EReal :=
  Cert.Mlp.out (fun g => ∑ i : Fin 23, x0 (ix2 b i) * x1 (ix3 k i g)) (fun g => x2 (ix3 k (0 : Fin 1) g))
    (fun g h => x3 (ix3 k g h)) (fun h => x4 (ix3 k (0 : Fin 1) h)) (fun h => x5 (ix3 k h o)) (x6 (ix3 k (0 : Fin 1) o))

/-- The block: means in row 0 of each member, clamped log-variances in row 1. -/
def blockSpec (y : S10x2x4096.Idx) : EReal :=
  if (y 1).val = 0 then blockMember x0 x1 x2 x3 x4 x5 x6 (y 0) 0 (y 2)
  else Cert.Mlp.clamp (blockMember x0 x1 x2 x3 x4 x5 x6 (y 0) 1 (y 2))

theorem blockSpec_row0 (k : Fin 10) (b : Fin 4096) :
    blockSpec x0 x1 x2 x3 x4 x5 x6 (ix3 k (0 : Fin 2) b) = blockMember x0 x1 x2 x3 x4 x5 x6 k 0 b := if_pos rfl

theorem blockSpec_row1 (k : Fin 10) (b : Fin 4096) :
    blockSpec x0 x1 x2 x3 x4 x5 x6 (ix3 k (1 : Fin 2) b) = Cert.Mlp.clamp (blockMember x0 x1 x2 x3 x4 x5 x6 k 1 b) :=
  if_neg (show ¬ ((1 : ℕ) = 0) by decide)

end

/-! ### Every stored piece is a restriction of the block function -/

section
variable (c : Dev nD) (i : grid0.Coords)
  (arg1 : Memref sig .tc .vmem S4096x23 .f32) (harg1 : arg1.IsWhole) (arg2 : Memref sig .tc .vmem S10x23x128 .bf16) (harg2 : arg2.IsWhole)
  (arg3 : Memref sig .tc .vmem S10x1x128 .f32) (harg3 : arg3.IsWhole) (arg4 : Memref sig .tc .vmem S10x128x128 .bf16) (harg4 : arg4.IsWhole)
  (arg5 : Memref sig .tc .vmem S10x1x128 .f32) (harg5 : arg5.IsWhole) (arg6 : Memref sig .tc .vmem S10x128x2 .bf16) (harg6 : arg6.IsWhole)
  (arg7 : Memref sig .tc .vmem S10x1x2 .f32) (harg7 : arg7.IsWhole) (arg8 : Memref sig .tc .vmem S10x2x4096 .f32) (harg8 : arg8.IsWhole)
  (x0 : Vec Ideal S4096x23 .f32) (x1 : Vec Ideal S10x23x128 .bf16) (x2 : Vec Ideal S10x1x128 .f32)
  (x3 : Vec Ideal S10x128x128 .bf16) (x4 : Vec Ideal S10x1x128 .f32) (x5 : Vec Ideal S10x128x2 .bf16) (x6 : Vec Ideal S10x1x2 .f32)

/-- The batch as the body loads it. -/
abbrev batchLoad : Vec Ideal S4096x23 .f32 :=
  View.readAt (Elt Ideal) arg1.view (Rect.unit (s := S4096x23) ![0, 0] S4096x23.size inb_S4096x23_S4096x23_0_0).toLoadRect (harg1.unread x0)

/-- A trip's member, computed from the loads, is the block's member `k`. -/
theorem member_eq (k : Fin k0_t1_loop.trips) (hk : k.val < 10) (o : Fin 2) (b : Fin 4096) :
    Trip.member (k0_pay1 (F := Ideal) (batchLoad arg1 harg1 x0))
        (View.readAt (Elt Ideal) arg2.view (Rect.unit (s := S10x23x128) (k0_off1 k) S1x23x128.size (k0_off1_inb k)).toLoadRect (harg2.unread x1))
        (View.readAt (Elt Ideal) arg3.view (Rect.unit (s := S10x1x128) (k0_off2 k) S1x1x128.size (k0_off2_inb k)).toLoadRect (harg3.unread x2))
        (View.readAt (Elt Ideal) arg4.view (Rect.unit (s := S10x128x128) (k0_off3 k) S1x128x128.size (k0_off3_inb k)).toLoadRect (harg4.unread x3))
        (View.readAt (Elt Ideal) arg5.view (Rect.unit (s := S10x1x128) (k0_off2 k) S1x1x128.size (k0_off2_inb k)).toLoadRect (harg5.unread x4))
        (View.readAt (Elt Ideal) arg6.view (Rect.unit (s := S10x128x2) (k0_off4 k) S1x128x2.size (k0_off4_inb k)).toLoadRect (harg6.unread x5))
        (View.readAt (Elt Ideal) arg7.view (Rect.unit (s := S10x1x2) (k0_off5 k) S1x1x2.size (k0_off5_inb k)).toLoadRect (harg7.unread x6)) o b
      = blockMember x0 x1 x2 x3 x4 x5 x6 ⟨k.val, hk⟩ o b := by
  have e0 : ∀ (b : Fin 4096) (i : Fin 23), k0_pay1 (F := Ideal) (batchLoad arg1 harg1 x0) (ix2 b i) = x0 (ix2 b i) :=
    fun b i => (show _ = batchLoad arg1 harg1 x0 (ix2 b i) from rfl).trans (readAt_all arg1 harg1 x0 _ b i)
  have e1 := readAt_slab arg2 harg2 x1 (k0_off1 k) (k0_off1_inb k) k.val hk (k0_off1_eq k)
  have e2 := readAt_slab arg3 harg3 x2 (k0_off2 k) (k0_off2_inb k) k.val hk (k0_off2_eq k)
  have e3 := readAt_slab arg4 harg4 x3 (k0_off3 k) (k0_off3_inb k) k.val hk (k0_off3_eq k)
  have e4 := readAt_slab arg5 harg5 x4 (k0_off2 k) (k0_off2_inb k) k.val hk (k0_off2_eq k)
  have e5 := readAt_slab arg6 harg6 x5 (k0_off4 k) (k0_off4_inb k) k.val hk (k0_off4_eq k)
  have e6 := readAt_slab arg7 harg7 x6 (k0_off5 k) (k0_off5_inb k) k.val hk (k0_off5_eq k)
  unfold Trip.member blockMember
  simp only [e0, e1, e2, e3, e4, e5, e6]

/-- Both pieces of a trip agree with the block function on their rows. -/
theorem trip_pieces_agree (k : Fin k0_t1_loop.trips) :
    ∀ p ∈ LoopPieces.tripPieces (F := Ideal) arg2 arg3 arg4 arg5 arg6 arg7 (batchLoad arg1 harg1 x0)
        (harg2.unread x1) (harg3.unread x2) (harg4.unread x3) (harg5.unread x4) (harg6.unread x5) (harg7.unread x6) k,
      ∀ x : p.1.shape.Idx, p.2 x = blockSpec x0 x1 x2 x3 x4 x5 x6 (p.1.emb x) := by
  have hk : k.val < 10 := Nat.lt_of_lt_of_le k.isLt k0_t1_abs.2.1
  intro p hp x
  rcases List.mem_cons.mp hp with rfl | hp
  · -- the clamped row (k, 1)
    obtain ⟨z, z', b, rfl⟩ : ∃ (z z' : Fin 1) (b : Fin 4096), x = ix3 z z' b := ⟨x 0, x 1, x 2, eq_ix3 x⟩
    obtain rfl : z = 0 := Subsingleton.elim _ _
    obtain rfl : z' = 0 := Subsingleton.elim _ _
    have hy : (Rect.unit (s := S10x2x4096) (k0_off7 k) S1x1x4096.size (k0_off7_inb k)).emb (ix3 (0 : Fin 1) (0 : Fin 1) b)
        = ix3 (⟨k.val, hk⟩ : Fin 10) (1 : Fin 2) b := funext fun a => Fin.ext (by
      rw [Rect.emb_apply]
      match a with
      | ⟨0, _⟩ => show k0_off7 k 0 + 1 * 0 = k.val; rw [k0_off7_eq]; rfl
      | ⟨1, _⟩ => show k0_off7 k 1 + 1 * 0 = 1; rw [k0_off7_eq]; rfl
      | ⟨2, _⟩ => show k0_off7 k 2 + 1 * b.val = b.val; rw [k0_off7_eq]; show 0 + 1 * b.val = b.val; omega)
    show k0_pay6 (F := Ideal) _ (ix3 (0 : Fin 1) (0 : Fin 1) b) = blockSpec x0 x1 x2 x3 x4 x5 x6 _
    rw [hy]
    refine (Trip.logvar_piece_apply _ _ _ _ _ _ _ b).trans ?_
    rw [blockSpec_row1]
    exact congrArg Cert.Mlp.clamp (member_eq arg1 harg1 arg2 harg2 arg3 harg3 arg4 harg4 arg5 harg5 arg6 harg6 arg7 harg7 x0 x1 x2 x3 x4 x5 x6 k hk 1 b)
  · -- the mean row (k, 0)
    rcases List.mem_cons.mp hp with rfl | hp
    swap
    · exact absurd hp List.not_mem_nil
    obtain ⟨z, z', b, rfl⟩ : ∃ (z z' : Fin 1) (b : Fin 4096), x = ix3 z z' b := ⟨x 0, x 1, x 2, eq_ix3 x⟩
    obtain rfl : z = 0 := Subsingleton.elim _ _
    obtain rfl : z' = 0 := Subsingleton.elim _ _
    have hy : (Rect.unit (s := S10x2x4096) (k0_off6 k) S1x1x4096.size (k0_off6_inb k)).emb (ix3 (0 : Fin 1) (0 : Fin 1) b)
        = ix3 (⟨k.val, hk⟩ : Fin 10) (0 : Fin 2) b := funext fun a => Fin.ext (by
      rw [Rect.emb_apply]
      match a with
      | ⟨0, _⟩ => show k0_off6 k 0 + 1 * 0 = k.val; rw [k0_off6_eq]; rfl
      | ⟨1, _⟩ => show k0_off6 k 1 + 1 * 0 = 0; rw [k0_off6_eq]; rfl
      | ⟨2, _⟩ => show k0_off6 k 2 + 1 * b.val = b.val; rw [k0_off6_eq]; show 0 + 1 * b.val = b.val; omega)
    dsimp only
    rw [hy]
    refine (Trip.mean_piece_apply _ _ _ _ _ _ _ b).trans ?_
    rw [blockSpec_row0]
    exact member_eq arg1 harg1 arg2 harg2 arg3 harg3 arg4 harg4 arg5 harg5 arg6 harg6 arg7 harg7 x0 x1 x2 x3 x4 x5 x6 k hk 0 b

/-- The output block after the body: the block function, at every index. -/
theorem out_block_apply (y : S10x2x4096.Idx) :
    GenP.out0_A_7 (F := Ideal) c i arg1 harg1 arg2 harg2 arg3 harg3 arg4 harg4 arg5 harg5 arg6 harg6 arg7 harg7 arg8 harg8 x0 x1 x2 x3 x4 x5 x6 y = blockSpec x0 x1 x2 x3 x4 x5 x6 y := by
  unfold GenP.out0_A_7
  refine View.read_writes_apply_of_pieces _ _ (blockSpec x0 x1 x2 x3 x4 x5 x6) _ (fun p hp x => ?_) y
    (GenP.cover0_A_7 c i arg1 harg1 arg2 harg2 arg3 harg3 arg4 harg4 arg5 harg5 arg6 harg6 arg7 harg7 arg8 harg8 x0 x1 x2 x3 x4 x5 x6 y)
  have hp' : p ∈ pb_k0_t1 (F := Ideal) Variants.none c none i arg1 harg1 arg2 harg2 arg3 harg3 arg4 harg4 arg5 harg5 arg6 harg6 arg7 harg7 arg8 harg8 (batchLoad arg1 harg1 x0)
      (harg2.unread x1) (harg3.unread x2) (harg4.unread x3) (harg5.unread x4) (harg6.unread x5) (harg7.unread x6) arg8.view.junk
      (Scf.trips k0_t1_loop.lb k0_t1_loop.ub k0_t1_loop.st) := hp
  obtain ⟨k, hk⟩ := LoopPieces.mem_pb (F := Ideal) Variants.none c none i arg1 harg1 arg2 harg2 arg3 harg3 arg4 harg4 arg5 harg5 arg6 harg6 arg7 harg7 arg8 harg8 (batchLoad arg1 harg1 x0)
    (harg2.unread x1) (harg3.unread x2) (harg4.unread x3) (harg5.unread x4) (harg6.unread x5) (harg7.unread x6) arg8.view.junk _ p hp'
  exact trip_pieces_agree arg1 harg1 arg2 harg2 arg3 harg3 arg4 harg4 arg5 harg5 arg6 harg6 arg7 harg7 x0 x1 x2 x3 x4 x5 x6 k p hk x

end

end Cert.KernelIdeal.Block

end
-- ==== Proof.LibLeadingAxes.lean ====
/-
  Reshapes that merge, split, add or drop leading and unit axes, read at an index.

  An [A, B, …] array recast with its two leading axes merged into one of length N = A·B holds, at merged position
  a·B + b, what the operand holds at (a, b): both entries sit at the same row-major position.  The same for a unit
  axis inserted after the merged axis, for a unit axis dropped from the middle, and for a trailing unit axis added
  while the leading axis is split again.
-/
import Idealize.ShloMosaic.Lib.Pipeline.Value
import Idealize.ShloMosaic.Lib.ValueIdx

namespace Idealize.ShloMosaic.ValueIdx

open Idealize.ShloMosaic

variable {α : Type}

/-- `[A, B, n, m] → [N, n, m]`: entry `(a·B + b, q, d)` of the cast is entry `(a, b, q, d)` of the operand. -/
theorem shapeCast_merge_lead4_apply {A B N n m : ℕ} (X : (⟨4, ![A, B, n, m]⟩ : Shape).Idx → α)
    (hc : (⟨4, ![A, B, n, m]⟩ : Shape).ShapeCasts ⟨3, ![N, n, m]⟩) (a : Fin A) (b : Fin B) (j : Fin N)
    (hj : j.val = a.val * B + b.val) (q : Fin n) (d : Fin m) :
    shapeCast ⟨3, ![N, n, m]⟩ X hc (ix3 j q d) = X (ix4 a b q d) :=
  shapeCast_apply X hc _ _ (by
    rw [Shape.rowMajor_val_four, Shape.rowMajor_val_three]
    show ((a.val * B + b.val) * n + q.val) * m + d.val = (j.val * n + q.val) * m + d.val
    rw [hj])

/-- `[A, B, m] → [N, 1, m]`: entry `(a·B + b, 0, d)` of the cast is entry `(a, b, d)` of the operand. -/
theorem shapeCast_merge_lead3_unit_apply {A B N m : ℕ} (X : (⟨3, ![A, B, m]⟩ : Shape).Idx → α)
    (hc : (⟨3, ![A, B, m]⟩ : Shape).ShapeCasts ⟨3, ![N, 1, m]⟩) (a : Fin A) (b : Fin B) (j : Fin N)
    (hj : j.val = a.val * B + b.val) (z : Fin 1) (d : Fin m) :
    shapeCast ⟨3, ![N, 1, m]⟩ X hc (ix3 j z d) = X (ix3 a b d) :=
  shapeCast_apply X hc _ _ (by
    rw [Shape.rowMajor_val_three, Shape.rowMajor_val_three]
    show (a.val * B + b.val) * m + d.val = (j.val * 1 + z.val) * m + d.val
    have hz : z.val = 0 := by have := z.isLt; omega
    rw [hj, hz, Nat.mul_one, Nat.add_zero])

/-- `[N, 1, m] → [N, m]`: entry `(j, d)` of the cast is entry `(j, 0, d)` of the operand. -/
theorem shapeCast_drop_mid_unit_apply {N m : ℕ} (X : (⟨3, ![N, 1, m]⟩ : Shape).Idx → α)
    (hc : (⟨3, ![N, 1, m]⟩ : Shape).ShapeCasts ⟨2, ![N, m]⟩) (j : Fin N) (z : Fin 1) (d : Fin m) :
    shapeCast ⟨2, ![N, m]⟩ X hc (ix2 j d) = X (ix3 j z d) :=
  shapeCast_apply X hc _ _ (by
    rw [Shape.rowMajor_val_three, Shape.rowMajor_val_two]
    show (j.val * 1 + z.val) * m + d.val = j.val * m + d.val
    have hz : z.val = 0 := by have := z.isLt; omega
    rw [hz, Nat.mul_one, Nat.add_zero])

/-- `[N, m] → [A, B, m, 1]`: entry `(a, b, d, 0)` of the cast is entry `(a·B + b, d)` of the operand. -/
theorem shapeCast_split_lead_unit_apply {A B N m : ℕ} (X : (⟨2, ![N, m]⟩ : Shape).Idx → α)
    (hc : (⟨2, ![N, m]⟩ : Shape).ShapeCasts ⟨4, ![A, B, m, 1]⟩) (a : Fin A) (b : Fin B) (j : Fin N)
    (hj : j.val = a.val * B + b.val) (d : Fin m) (z : Fin 1) :
    shapeCast ⟨4, ![A, B, m, 1]⟩ X hc (ix4 a b d z) = X (ix2 j d) :=
  shapeCast_apply X hc _ _ (by
    rw [Shape.rowMajor_val_two, Shape.rowMajor_val_four]
    show j.val * m + d.val = ((a.val * B + b.val) * m + d.val) * 1 + z.val
    have hz : z.val = 0 := by have := z.isLt; omega
    rw [hj, hz, Nat.mul_one, Nat.add_zero])

end Idealize.ShloMosaic.ValueIdx
-- ==== Proof.KernelArrays.lean ====
/-
  What the kernel's operand arrays hold when the call begins.

  Before the call the host folds the mask into the first layer's weights and flattens the two leading axes
  (18 ensembles × 10 members) of every weight and bias array into one axis of 180, member (d, e) at position 10·d + e;
  the narrowing of the weights to a shorter float format is the identity on the extended reals.  So, with j = 10·d + e,

      first-layer slab   (j, i, h)  =  masks (e, d, i) · W1 (d, e, i, h)
      the other slabs    (j, g, h)  =  W2 (d, e, g, h),   (j, h, o) = W3 (d, e, h, o)
      the bias rows      (j, 0, h)  =  b1 (d, e, h),  b2 (d, e, h),   (j, 0, o) = b3 (d, e, o).
-/
import proofs.«101378_j51470888075968_2_alg».proof.Proof.Gen.KernelIdeal.Frame.Runs
import proofs.«101378_j51470888075968_2_alg».proof.Proof.LibLeadingAxes
import Idealize.ShloMosaic.Lib.StableHlo.Run

noncomputable section

namespace Cert.KernelIdeal.Arrays

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (c : Dev nD)

/-- The eight argument arrays, as launched. -/
abbrev aX : S4096x23.Idx → EReal := m ((c : Thread nD τ).loc main_arg0)
abbrev aMask : S10x18x23.Idx → EReal := m ((c : Thread nD τ).loc main_arg1)
abbrev aW1 : S18x10x23x128.Idx → EReal := m ((c : Thread nD τ).loc main_arg2)
abbrev aB1 : S18x10x128.Idx → EReal := m ((c : Thread nD τ).loc main_arg3)
abbrev aW2 : S18x10x128x128.Idx → EReal := m ((c : Thread nD τ).loc main_arg4)
abbrev aB2 : S18x10x128.Idx → EReal := m ((c : Thread nD τ).loc main_arg5)
abbrev aW3 : S18x10x128x2.Idx → EReal := m ((c : Thread nD τ).loc main_arg6)
abbrev aB3 : S18x10x2.Idx → EReal := m ((c : Thread nD τ).loc main_arg7)

theorem V_v5_eq : @Eq (FVec Ideal S180x23x128 .bf16) (V (F := Ideal) m c main_v5)
    (truncf .bf16 (shapeCast S180x23x128 (mulf (broadcastInDim S18x10x23x128 ![0, 1, 2, 3] bcast_S18x10x23x1_S18x10x23x128_0_1_2_3
        (broadcastInDim S18x10x23x1 ![0, 1, 2] bcast_S18x10x23_S18x10x23x1_0_1_2
          (transpose S18x10x23 [1, 0, 2] (aMask m c) transposes_S10x18x23_S18x10x23_1_0_2))) (aW1 m c))
        shapeCasts_S18x10x23x128_S180x23x128) bitsLt_bf16_f32) := by
  show StableHlo.after hostOps0 (fun b => m (c, b)) (Proc.devRef .tc main_v5) = _
  after_results
  rfl

theorem V_v6_eq : @Eq (FVec Ideal S180x1x128 .f32) (V (F := Ideal) m c main_v6)
    (shapeCast S180x1x128 (aB1 m c) shapeCasts_S18x10x128_S180x1x128) := by
  show StableHlo.after hostOps0 (fun b => m (c, b)) (Proc.devRef .tc main_v6) = _
  after_results
  rfl

theorem V_v8_eq : @Eq (FVec Ideal S180x128x128 .bf16) (V (F := Ideal) m c main_v8)
    (truncf .bf16 (shapeCast S180x128x128 (aW2 m c) shapeCasts_S18x10x128x128_S180x128x128) bitsLt_bf16_f32) := by
  show StableHlo.after hostOps0 (fun b => m (c, b)) (Proc.devRef .tc main_v8) = _
  after_results
  rfl

theorem V_v9_eq : @Eq (FVec Ideal S180x1x128 .f32) (V (F := Ideal) m c main_v9)
    (shapeCast S180x1x128 (aB2 m c) shapeCasts_S18x10x128_S180x1x128) := by
  show StableHlo.after hostOps0 (fun b => m (c, b)) (Proc.devRef .tc main_v9) = _
  after_results
  rfl

theorem V_v11_eq : @Eq (FVec Ideal S180x128x2 .bf16) (V (F := Ideal) m c main_v11)
    (truncf .bf16 (shapeCast S180x128x2 (aW3 m c) shapeCasts_S18x10x128x2_S180x128x2) bitsLt_bf16_f32) := by
  show StableHlo.after hostOps0 (fun b => m (c, b)) (Proc.devRef .tc main_v11) = _
  after_results
  rfl

theorem V_v12_eq : @Eq (FVec Ideal S180x1x2 .f32) (V (F := Ideal) m c main_v12)
    (shapeCast S180x1x2 (aB3 m c) shapeCasts_S18x10x2_S180x1x2) := by
  show StableHlo.after hostOps0 (fun b => m (c, b)) (Proc.devRef .tc main_v12) = _
  after_results
  rfl

/-! ### The same, read at an index -/

section
variable (d : Fin 18) (e : Fin 10) (j : Fin 180) (hj : j.val = d.val * 10 + e.val)
include hj

/-- The first-layer slab of member (d, e): the mask folded into the weights. -/
theorem w1_apply (i : Fin 23) (h : Fin 128) :
    (V (F := Ideal) m c main_v5 : FVec Ideal S180x23x128 .bf16) (ix3 j i h) = aMask m c (ix3 e d i) * aW1 m c (ix4 d e i h) := by
  rw [V_v5_eq]
  refine (truncf_apply (φ := .f32) (ψ := .bf16) _ bitsLt_bf16_f32 _).trans ?_
  refine (shapeCast_merge_lead4_apply _ _ d e j hj i h).trans ?_
  refine (mulf_apply _ _ _).trans (congrArg (· * _) ?_)
  refine (broadcastInDim_apply _ bcast_S18x10x23x1_S18x10x23x128_0_1_2_3 _ (ix4 d e i h) (ix4 d e i (0 : Fin 1)) (fun a => match a with
    | ⟨0, _⟩ => by show d.val = if (18 : Nat) = 1 then 0 else d.val; rw [if_neg (by decide)]
    | ⟨1, _⟩ => by show e.val = if (10 : Nat) = 1 then 0 else e.val; rw [if_neg (by decide)]
    | ⟨2, _⟩ => by show i.val = if (23 : Nat) = 1 then 0 else i.val; rw [if_neg (by decide)]
    | ⟨3, _⟩ => by show (0 : Nat) = if (1 : Nat) = 1 then 0 else h.val; rw [if_pos rfl])).trans ?_
  refine (broadcastInDim_apply _ bcast_S18x10x23_S18x10x23x1_0_1_2 _ (ix4 d e i (0 : Fin 1)) (ix3 d e i) (fun a => match a with
    | ⟨0, _⟩ => by show d.val = if (18 : Nat) = 1 then 0 else d.val; rw [if_neg (by decide)]
    | ⟨1, _⟩ => by show e.val = if (10 : Nat) = 1 then 0 else e.val; rw [if_neg (by decide)]
    | ⟨2, _⟩ => by show i.val = if (23 : Nat) = 1 then 0 else i.val; rw [if_neg (by decide)])).trans ?_
  exact transpose_apply [1, 0, 2] (aMask m c) transposes_S10x18x23_S18x10x23_1_0_2 (ix3 d e i) (ix3 e d i) (fun b => match b with
    | ⟨0, _⟩ => rfl
    | ⟨1, _⟩ => rfl
    | ⟨2, _⟩ => rfl)

theorem b1_apply (z : Fin 1) (h : Fin 128) :
    (V (F := Ideal) m c main_v6 : FVec Ideal S180x1x128 .f32) (ix3 j z h) = aB1 m c (ix3 d e h) := by
  rw [V_v6_eq]
  exact shapeCast_merge_lead3_unit_apply _ _ d e j hj z h

theorem w2_apply (g : Fin 128) (h : Fin 128) :
    (V (F := Ideal) m c main_v8 : FVec Ideal S180x128x128 .bf16) (ix3 j g h) = aW2 m c (ix4 d e g h) := by
  rw [V_v8_eq]
  exact (truncf_apply (φ := .f32) (ψ := .bf16) _ bitsLt_bf16_f32 _).trans (shapeCast_merge_lead4_apply _ _ d e j hj g h)

theorem b2_apply (z : Fin 1) (h : Fin 128) :
    (V (F := Ideal) m c main_v9 : FVec Ideal S180x1x128 .f32) (ix3 j z h) = aB2 m c (ix3 d e h) := by
  rw [V_v9_eq]
  exact shapeCast_merge_lead3_unit_apply _ _ d e j hj z h

theorem w3_apply (h : Fin 128) (o : Fin 2) :
    (V (F := Ideal) m c main_v11 : FVec Ideal S180x128x2 .bf16) (ix3 j h o) = aW3 m c (ix4 d e h o) := by
  rw [V_v11_eq]
  exact (truncf_apply (φ := .f32) (ψ := .bf16) _ bitsLt_bf16_f32 _).trans (shapeCast_merge_lead4_apply _ _ d e j hj h o)

theorem b3_apply (z : Fin 1) (o : Fin 2) :
    (V (F := Ideal) m c main_v12 : FVec Ideal S180x1x2 .f32) (ix3 j z o) = aB3 m c (ix3 d e o) := by
  rw [V_v12_eq]
  exact shapeCast_merge_lead3_unit_apply _ _ d e j hj z o

end

end Cert.KernelIdeal.Arrays

end
-- ==== Proof.KernelValue.lean ====
/-
  The kernel's output array after the call.

  Grid point t handles ensemble d = t: its blocks are rows 10·t … 10·t + 9 of each flattened weight and bias array,
  and it writes rows 10·t … 10·t + 9 of the [180, 2, 4096] result.  The eighteen output blocks tile the result, so
  the whole array ends as one function of the eight argument arrays: at (10·d + e, 0, b) the first output of member
  (d, e) at batch row b, at (10·d + e, 1, b) the clamp of its second output — with the mask folded into the first
  layer's weights, Σ_i x (b, i) · (masks (e, d, i) · W1 (d, e, i, g)).
-/
import proofs.«101378_j51470888075968_2_alg».proof.Proof.KernelBlock
import proofs.«101378_j51470888075968_2_alg».proof.Proof.KernelArrays

noncomputable section

namespace Cert.KernelIdeal.Val

open Cert.KernelIdeal Cert.KernelIdeal.Gen Cert.KernelIdeal.Arrays Cert.KernelIdeal.Block
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (c : Dev nD)

/-- Output `o` of member (d, e) at batch row `b`, from the argument arrays, the mask folded into the weights. -/
def memberOut (d : Fin 18) (e : Fin 10) (o : Fin 2) (b : Fin 4096) : EReal :=
  Cert.Mlp.out (fun g => ∑ i : Fin 23, aX m c (ix2 b i) * (aMask m c (ix3 e d i) * aW1 m c (ix4 d e i g)))
    (fun g => aB1 m c (ix3 d e g)) (fun g h => aW2 m c (ix4 d e g h)) (fun h => aB2 m c (ix3 d e h))
    (fun h => aW3 m c (ix4 d e h o)) (aB3 m c (ix3 d e o))

/-- The [180, 2, 4096] result. -/
def outArr (j : S180x2x4096.Idx) : EReal :=
  if (j 1).val = 0 then
    memberOut m c ⟨(j 0).val / 10, by have h : (j 0).val < 180 := (j 0).isLt; show (j 0).val / 10 < 18; omega⟩ ⟨(j 0).val % 10, Nat.mod_lt _ (by decide)⟩ 0 (j 2)
  else
    Cert.Mlp.clamp (memberOut m c ⟨(j 0).val / 10, by have h : (j 0).val < 180 := (j 0).isLt; show (j 0).val / 10 < 18; omega⟩ ⟨(j 0).val % 10, Nat.mod_lt _ (by decide)⟩ 1 (j 2))

theorem outArr_row0 (d : Fin 18) (e : Fin 10) (j : Fin 180) (hj : j.val = d.val * 10 + e.val) (b : Fin 4096) :
    outArr m c (ix3 j (0 : Fin 2) b) = memberOut m c d e 0 b := by
  have hd : (⟨j.val / 10, by omega⟩ : Fin 18) = d := Fin.ext (by show j.val / 10 = d.val; have := e.isLt; omega)
  have he : (⟨j.val % 10, Nat.mod_lt _ (by decide)⟩ : Fin 10) = e := Fin.ext (by show j.val % 10 = e.val; have := e.isLt; omega)
  refine (if_pos (show ((0 : ℕ) = 0) from rfl)).trans ?_
  show memberOut m c ⟨j.val / 10, _⟩ ⟨j.val % 10, _⟩ 0 b = _
  rw [hd, he]

theorem outArr_row1 (d : Fin 18) (e : Fin 10) (j : Fin 180) (hj : j.val = d.val * 10 + e.val) (b : Fin 4096) :
    outArr m c (ix3 j (1 : Fin 2) b) = Cert.Mlp.clamp (memberOut m c d e 1 b) := by
  have hd : (⟨j.val / 10, by omega⟩ : Fin 18) = d := Fin.ext (by show j.val / 10 = d.val; have := e.isLt; omega)
  have he : (⟨j.val % 10, Nat.mod_lt _ (by decide)⟩ : Fin 10) = e := Fin.ext (by show j.val % 10 = e.val; have := e.isLt; omega)
  refine (if_neg (show ¬ ((1 : ℕ) = 0) by decide)).trans ?_
  show Cert.Mlp.clamp (memberOut m c ⟨j.val / 10, _⟩ ⟨j.val % 10, _⟩ 1 b) = _
  rw [hd, he]

/-! ### Where each window's block sits at a grid point -/

/-- The printed index maps over the grid: the batch window stays at block (0, 0); every other window is at block t of
    its leading axis. -/
theorem idx_facts : ∀ t : Fin cfg0.N, t.val < 18
    ∧ win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- Every block row of the result is some point's. -/
theorem idx_onto : ∀ q : Fin 18, ∃ t : Fin cfg0.N, t.val = q.val :=
  (by decide +kernel : ∀ q : Fin 18, ∃ t : Fin grid0.N, t.val = q.val)

/-! ### The blocks a grid point is handed, read off the argument arrays -/

section
variable (t : Fin cfg0.N) (d : Fin 18) (hd : d.val = t.val)
include hd

theorem blkX_apply (b : Fin 4096) (i : Fin 23) : iblk (F := Ideal) m c 0 t (ix2 b i) = aX m c (ix2 b i) := by
  obtain ⟨ht, e00, e01, -⟩ := idx_facts t
  show V (F := Ideal) m c main_arg0 (((cfg0.win 0).blk t).view.emb (ix2 b i)) = _
  rw [V_main_arg0]
  refine congrArg (aX m c) (funext fun a => Fin.ext ?_)
  match a with
  | ⟨0, _⟩ => show win0_0.index t (0 : Fin 2) * 4096 + 1 * b.val = b.val; omega
  | ⟨1, _⟩ => show win0_0.index t (1 : Fin 2) * 23 + 1 * i.val = i.val; omega

theorem blkW1_apply (k : Fin 10) (i : Fin 23) (g : Fin 128) :
    iblk (F := Ideal) m c 1 t (ix3 k i g) = aMask m c (ix3 k d i) * aW1 m c (ix4 d k i g) := by
  obtain ⟨ht, -, -, e10, e11, e12, e20, e21, e22, e30, e31, e32, e40, e41, e42, e50, e51, e52, e60, e61, e62, -⟩ := idx_facts t
  show V (F := Ideal) m c main_v5 (((cfg0.win 1).blk t).view.emb (ix3 k i g)) = _
  have he : ((cfg0.win 1).blk t).view.emb (ix3 k i g) = ix3 (⟨d.val * 10 + k.val, by have := d.isLt; have := k.isLt; omega⟩ : Fin 180) i g :=
    funext fun a => Fin.ext (by
      match a with
      | ⟨0, _⟩ => show win0_1.index t (0 : Fin 3) * 10 + 1 * k.val = d.val * 10 + k.val; omega
      | ⟨1, _⟩ => show win0_1.index t (1 : Fin 3) * 23 + 1 * (i).val = (i).val; omega
      | ⟨2, _⟩ => show win0_1.index t (2 : Fin 3) * 128 + 1 * (g).val = (g).val; omega)
  rw [he]
  exact w1_apply m c d k _ rfl i g

theorem blkB1_apply (k : Fin 10) (z : Fin 1) (g : Fin 128) :
    iblk (F := Ideal) m c 2 t (ix3 k z g) = aB1 m c (ix3 d k g) := by
  obtain ⟨ht, -, -, e10, e11, e12, e20, e21, e22, e30, e31, e32, e40, e41, e42, e50, e51, e52, e60, e61, e62, -⟩ := idx_facts t
  show V (F := Ideal) m c main_v6 (((cfg0.win 2).blk t).view.emb (ix3 k z g)) = _
  have he : ((cfg0.win 2).blk t).view.emb (ix3 k z g) = ix3 (⟨d.val * 10 + k.val, by have := d.isLt; have := k.isLt; omega⟩ : Fin 180) z g :=
    funext fun a => Fin.ext (by
      match a with
      | ⟨0, _⟩ => show win0_2.index t (0 : Fin 3) * 10 + 1 * k.val = d.val * 10 + k.val; omega
      | ⟨1, _⟩ => show win0_2.index t (1 : Fin 3) * 1 + 1 * (z).val = (z).val; omega
      | ⟨2, _⟩ => show win0_2.index t (2 : Fin 3) * 128 + 1 * (g).val = (g).val; omega)
  rw [he]
  exact b1_apply m c d k _ rfl z g

theorem blkW2_apply (k : Fin 10) (g : Fin 128) (h : Fin 128) :
    iblk (F := Ideal) m c 3 t (ix3 k g h) = aW2 m c (ix4 d k g h) := by
  obtain ⟨ht, -, -, e10, e11, e12, e20, e21, e22, e30, e31, e32, e40, e41, e42, e50, e51, e52, e60, e61, e62, -⟩ := idx_facts t
  show V (F := Ideal) m c main_v8 (((cfg0.win 3).blk t).view.emb (ix3 k g h)) = _
  have he : ((cfg0.win 3).blk t).view.emb (ix3 k g h) = ix3 (⟨d.val * 10 + k.val, by have := d.isLt; have := k.isLt; omega⟩ : Fin 180) g h :=
    funext fun a => Fin.ext (by
      match a with
      | ⟨0, _⟩ => show win0_3.index t (0 : Fin 3) * 10 + 1 * k.val = d.val * 10 + k.val; omega
      | ⟨1, _⟩ => show win0_3.index t (1 : Fin 3) * 128 + 1 * (g).val = (g).val; omega
      | ⟨2, _⟩ => show win0_3.index t (2 : Fin 3) * 128 + 1 * (h).val = (h).val; omega)
  rw [he]
  exact w2_apply m c d k _ rfl g h

theorem blkB2_apply (k : Fin 10) (z : Fin 1) (h : Fin 128) :
    iblk (F := Ideal) m c 4 t (ix3 k z h) = aB2 m c (ix3 d k h) := by
  obtain ⟨ht, -, -, e10, e11, e12, e20, e21, e22, e30, e31, e32, e40, e41, e42, e50, e51, e52, e60, e61, e62, -⟩ := idx_facts t
  show V (F := Ideal) m c main_v9 (((cfg0.win 4).blk t).view.emb (ix3 k z h)) = _
  have he : ((cfg0.win 4).blk t).view.emb (ix3 k z h) = ix3 (⟨d.val * 10 + k.val, by have := d.isLt; have := k.isLt; omega⟩ : Fin 180) z h :=
    funext fun a => Fin.ext (by
      match a with
      | ⟨0, _⟩ => show win0_4.index t (0 : Fin 3) * 10 + 1 * k.val = d.val * 10 + k.val; omega
      | ⟨1, _⟩ => show win0_4.index t (1 : Fin 3) * 1 + 1 * (z).val = (z).val; omega
      | ⟨2, _⟩ => show win0_4.index t (2 : Fin 3) * 128 + 1 * (h).val = (h).val; omega)
  rw [he]
  exact b2_apply m c d k _ rfl z h

theorem blkW3_apply (k : Fin 10) (h : Fin 128) (o : Fin 2) :
    iblk (F := Ideal) m c 5 t (ix3 k h o) = aW3 m c (ix4 d k h o) := by
  obtain ⟨ht, -, -, e10, e11, e12, e20, e21, e22, e30, e31, e32, e40, e41, e42, e50, e51, e52, e60, e61, e62, -⟩ := idx_facts t
  show V (F := Ideal) m c main_v11 (((cfg0.win 5).blk t).view.emb (ix3 k h o)) = _
  have he : ((cfg0.win 5).blk t).view.emb (ix3 k h o) = ix3 (⟨d.val * 10 + k.val, by have := d.isLt; have := k.isLt; omega⟩ : Fin 180) h o :=
    funext fun a => Fin.ext (by
      match a with
      | ⟨0, _⟩ => show win0_5.index t (0 : Fin 3) * 10 + 1 * k.val = d.val * 10 + k.val; omega
      | ⟨1, _⟩ => show win0_5.index t (1 : Fin 3) * 128 + 1 * (h).val = (h).val; omega
      | ⟨2, _⟩ => show win0_5.index t (2 : Fin 3) * 2 + 1 * (o).val = (o).val; omega)
  rw [he]
  exact w3_apply m c d k _ rfl h o

theorem blkB3_apply (k : Fin 10) (z : Fin 1) (o : Fin 2) :
    iblk (F := Ideal) m c 6 t (ix3 k z o) = aB3 m c (ix3 d k o) := by
  obtain ⟨ht, -, -, e10, e11, e12, e20, e21, e22, e30, e31, e32, e40, e41, e42, e50, e51, e52, e60, e61, e62, -⟩ := idx_facts t
  show V (F := Ideal) m c main_v12 (((cfg0.win 6).blk t).view.emb (ix3 k z o)) = _
  have he : ((cfg0.win 6).blk t).view.emb (ix3 k z o) = ix3 (⟨d.val * 10 + k.val, by have := d.isLt; have := k.isLt; omega⟩ : Fin 180) z o :=
    funext fun a => Fin.ext (by
      match a with
      | ⟨0, _⟩ => show win0_6.index t (0 : Fin 3) * 10 + 1 * k.val = d.val * 10 + k.val; omega
      | ⟨1, _⟩ => show win0_6.index t (1 : Fin 3) * 1 + 1 * (z).val = (z).val; omega
      | ⟨2, _⟩ => show win0_6.index t (2 : Fin 3) * 2 + 1 * (o).val = (o).val; omega)
  rw [he]
  exact b3_apply m c d k _ rfl z o

/-- A member of the point's block is the member (d, k) of the ensemble. -/
theorem blockMember_eq (k : Fin 10) (o : Fin 2) (b : Fin 4096) :
    blockMember (iblk (F := Ideal) m c 0 t) (iblk (F := Ideal) m c 1 t) (iblk (F := Ideal) m c 2 t) (iblk (F := Ideal) m c 3 t)
        (iblk (F := Ideal) m c 4 t) (iblk (F := Ideal) m c 5 t) (iblk (F := Ideal) m c 6 t) k o b
      = memberOut m c d k o b := by
  unfold blockMember memberOut
  simp only [blkX_apply m c t d hd, blkW1_apply m c t d hd, blkB1_apply m c t d hd, blkW2_apply m c t d hd, blkB2_apply m c t d hd,
    blkW3_apply m c t d hd, blkB3_apply m c t d hd]

/-- What the body leaves in the output block at point t. -/
theorem outs_row0 (k : Fin 10) (b : Fin 4096) :
    GenP.outsAt0 (F := Ideal) m c t (ix3 k (0 : Fin 2) b) = memberOut m c d k 0 b := by
  unfold GenP.outsAt0
  rw [out_block_apply, blockSpec_row0]
  exact blockMember_eq m c t d hd k 0 b

theorem outs_row1 (k : Fin 10) (b : Fin 4096) :
    GenP.outsAt0 (F := Ideal) m c t (ix3 k (1 : Fin 2) b) = Cert.Mlp.clamp (memberOut m c d k 1 b) := by
  unfold GenP.outsAt0
  rw [out_block_apply, blockSpec_row1]
  exact congrArg Cert.Mlp.clamp (blockMember_eq m c t d hd k 1 b)

end

/-! ### From the blocks to the array -/

/-- What point t writes back is block t of the result. -/
theorem flushed_eq (t : Fin cfg0.N) :
    (GenP.dats (F := Ideal) m 0 c).flushed 7 t = ((cfg0.win 7).blk t).view.read (Elt Ideal) (outArr m c) := by
  obtain ⟨ht, -, -, -, -, -, -, -, -, -, -, -, -, -, -, -, -, -, -, -, -, e70, e71, e72⟩ := idx_facts t
  show (cfg0.win 7).cut (grid0.coords t) ((GenP.dats (F := Ideal) m 0 c).after 7 t) = _
  rw [GenP.after0_7]
  funext y
  obtain ⟨k, r, b, rfl⟩ : ∃ (k : Fin 10) (r : Fin 2) (b : Fin 4096), y = ix3 k r b := ⟨y 0, y 1, y 2, eq_ix3 y⟩
  show GenP.outsAt0 (F := Ideal) m c t (ix3 k r b) = outArr m c (((cfg0.win 7).blk t).view.emb (ix3 k r b))
  have he : ((cfg0.win 7).blk t).view.emb (ix3 k r b) = ix3 (⟨t.val * 10 + k.val, by have := k.isLt; omega⟩ : Fin 180) r b :=
    funext fun a => Fin.ext (by
      match a with
      | ⟨0, _⟩ => show win0_7.index t (0 : Fin 3) * 10 + 1 * k.val = t.val * 10 + k.val; omega
      | ⟨1, _⟩ => show win0_7.index t (1 : Fin 3) * 2 + 1 * r.val = r.val; omega
      | ⟨2, _⟩ => show win0_7.index t (2 : Fin 3) * 4096 + 1 * b.val = b.val; omega)
  rw [he]
  match r with
  | ⟨0, _⟩ => exact (outs_row0 m c t ⟨t.val, ht⟩ rfl k b).trans (outArr_row0 m c ⟨t.val, ht⟩ k _ rfl b).symm
  | ⟨1, _⟩ => exact (outs_row1 m c t ⟨t.val, ht⟩ rfl k b).trans (outArr_row1 m c ⟨t.val, ht⟩ k _ rfl b).symm

/-- An index of the result is in point t's block iff each coordinate is in the block's range. -/
theorem mem_blk (t : Fin cfg0.N) (i : S180x2x4096.Idx) :
    i ∈ ((cfg0.win 7).blk t).view.set ↔ ∀ a : Fin 3, win0_7.index t a * S10x2x4096.size a ≤ (i a).val
      ∧ (i a).val < win0_7.index t a * S10x2x4096.size a + S10x2x4096.size a := by
  show i ∈ ((View.whole main_v13).slice (win0_7.rect t)).set ↔ _
  rw [View.set_slice_whole, Rect.mem_set_unit]
  exact Iff.rfl

/-- The eighteen blocks tile the result: row j belongs to point j / 10. -/
theorem cover (i : S180x2x4096.Idx) :
    ∃ t : Fin cfg0.N, (cfg0.win 7).flush t = true ∧ i ∈ ((cfg0.win 7).blk t).view.set := by
  have hi0 : (i 0).val < 180 := (i 0).isLt
  have hi1 : (i 1).val < 2 := (i 1).isLt
  have hi2 : (i 2).val < 4096 := (i 2).isLt
  obtain ⟨t, hq⟩ := idx_onto ⟨(i 0).val / 10, by omega⟩
  have hq' : t.val = (i 0).val / 10 := hq
  obtain ⟨ht, -, -, -, -, -, -, -, -, -, -, -, -, -, -, -, -, -, -, -, -, e70, e71, e72⟩ := idx_facts t
  refine ⟨t, flush0_7 t, ?_⟩
  rw [mem_blk]
  intro a
  match a with
  | ⟨0, _⟩ => show win0_7.index t (0 : Fin 3) * 10 ≤ (i 0).val ∧ (i 0).val < win0_7.index t (0 : Fin 3) * 10 + 10; omega
  | ⟨1, _⟩ => show win0_7.index t (1 : Fin 3) * 2 ≤ (i 1).val ∧ (i 1).val < win0_7.index t (1 : Fin 3) * 2 + 2; omega
  | ⟨2, _⟩ => show win0_7.index t (2 : Fin 3) * 4096 ≤ (i 2).val ∧ (i 2).val < win0_7.index t (2 : Fin 3) * 4096 + 4096; omega

/-- The result array after the call. -/
theorem final : (GenP.dats (F := Ideal) m 0 c).arrAt 7 cfg0.N = outArr m c :=
  (GenP.dats (F := Ideal) m 0 c).arrAt_eq_of_cover 7 (outArr m c) (fun t _ => flushed_eq m c t) (cover)

end Cert.KernelIdeal.Val

end
-- ==== Proof.KernelRun.lean ====
/-
  The kernel program's run, with its two results named.

  After the call the host cuts the result [180, 2, 4096] into its rows 0 (means) and 1 (log-variances), drops the
  cut axis and splits the leading 180 back into 18 × 10 with a trailing unit axis.  So result entry (d, e, b, 0) is
  the kernel's output entry (10·d + e, 0, b), respectively (10·d + e, 1, b): the first output of member (d, e) at
  batch row b, and the clamp of its second output.
-/
import proofs.«101378_j51470888075968_2_alg».proof.Proof.KernelValue
import Idealize.ShloMosaic.Lib.StableHlo.Run

noncomputable section

namespace Cert.KernelIdeal.Run

open Cert.KernelIdeal Cert.KernelIdeal.Gen Cert.KernelIdeal.Arrays Cert.KernelIdeal.Val
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The first result: row 0 of every member, reshaped to [18, 10, 4096, 1]. -/
def meanArr : FVec Ideal S18x10x4096x1 .f32 :=
  shapeCast S18x10x4096x1 (shapeCast S180x4096 (extractStridedSlice S180x1x4096 ![0, 0, 0] (outArr m c)
    slices_S180x2x4096_S180x1x4096_0_0_0) shapeCasts_S180x1x4096_S180x4096) shapeCasts_S180x4096_S18x10x4096x1

/-- The second result: row 1 of every member, reshaped likewise. -/
def logvarArr : FVec Ideal S18x10x4096x1 .f32 :=
  shapeCast S18x10x4096x1 (shapeCast S180x4096 (extractStridedSlice S180x1x4096 ![0, 1, 0] (outArr m c)
    slices_S180x2x4096_S180x1x4096_0_1_0) shapeCasts_S180x1x4096_S180x4096) shapeCasts_S180x4096_S18x10x4096x1

/-- The kernel's output array, as the host operations after the call find it. -/
theorem tail_arr : @Eq (FVec Ideal S180x2x4096 .f32)
    (Pipeline.withArrays (cfgs 0).spec c (V0 (F := Ideal) m c) (fun w => (GenP.dats (F := Ideal) m 0 c).arrAt w (cfgs 0).N)
      (Proc.tc.devRef main_v13)) (outArr m c) :=
  (Pipeline.withArrays_arr spec0 launch0.win.arr_inj c _ _ 7).trans (final m c)

theorem tail_mean : @Eq (FVec Ideal S18x10x4096x1 .f32)
    (Pipeline.afterTail₀ cfgs (GenP.dats (F := Ideal) m) 0 (V0 m) [hostOps1] c main_v16) (meanArr m c) := by
  unfold Pipeline.afterTail₀
  show StableHlo.after hostOps1 _ (Proc.devRef .tc main_v16) = _
  after_results
  rw [tail_arr]
  rfl

theorem tail_logvar : @Eq (FVec Ideal S18x10x4096x1 .f32)
    (Pipeline.afterTail₀ cfgs (GenP.dats (F := Ideal) m) 0 (V0 m) [hostOps1] c main_v19) (logvarArr m c) := by
  unfold Pipeline.afterTail₀
  show StableHlo.after hostOps1 _ (Proc.devRef .tc main_v19) = _
  after_results
  rw [tail_arr]
  rfl

section
variable (d : Fin 18) (e : Fin 10) (b : Fin 4096) (z : Fin 1)

theorem meanArr_apply : meanArr m c (ix4 d e b z) = memberOut m c d e 0 b := by
  unfold meanArr
  refine (shapeCast_split_lead_unit_apply _ _ d e (⟨d.val * 10 + e.val, by have := d.isLt; have := e.isLt; omega⟩ : Fin 180) rfl b z).trans ?_
  refine (shapeCast_drop_mid_unit_apply _ _ _ (0 : Fin 1) b).trans ?_
  refine (extractStridedSlice_apply _ _ _ _ (ix3 (⟨d.val * 10 + e.val, by have := d.isLt; have := e.isLt; omega⟩ : Fin 180) (0 : Fin 2) b)
    (fun a => match a with | ⟨0, _⟩ => by simp | ⟨1, _⟩ => by simp | ⟨2, _⟩ => by simp)).trans ?_
  exact outArr_row0 m c d e _ rfl b

theorem logvarArr_apply : logvarArr m c (ix4 d e b z) = Cert.Mlp.clamp (memberOut m c d e 1 b) := by
  unfold logvarArr
  refine (shapeCast_split_lead_unit_apply _ _ d e (⟨d.val * 10 + e.val, by have := d.isLt; have := e.isLt; omega⟩ : Fin 180) rfl b z).trans ?_
  refine (shapeCast_drop_mid_unit_apply _ _ _ (0 : Fin 1) b).trans ?_
  refine (extractStridedSlice_apply _ _ _ _ (ix3 (⟨d.val * 10 + e.val, by have := d.isLt; have := e.isLt; omega⟩ : Fin 180) (1 : Fin 2) b)
    (fun a => match a with | ⟨0, _⟩ => by simp | ⟨1, _⟩ => by simp | ⟨2, _⟩ => by simp)).trans ?_
  exact outArr_row1 m c d e _ rfl b

end

/-- Every weakly fair execution of the kernel program ends with the two results at these arrays and the arguments as
    they were. -/
theorem run (ρ : Dev nD → PrngReg) :
    θ_run defs (onTc (τ := τ) (main (F := Ideal))) ⟨m, fun _ => 0, ρ⟩ (fun r => ∀ c : Dev nD,
      r.2.mem ((c.tc : Thread nD τ).loc main_v16) = meanArr m c
      ∧ r.2.mem ((c.tc : Thread nD τ).loc main_v19) = logvarArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_v16 (Pipeline.mem_restRefs_of main_v16 (by decide) (by decide))).trans (tail_mean m c),
      ((h c).2 main_v19 (Pipeline.mem_restRefs_of main_v19 (by decide) (by decide))).trans (tail_logvar m c),
      ((h c).1 0).trans (((GenP.dats (F := Ideal) m 0 c).arrAt_in 0 rfl _).trans ((GenP.A_eq m c 0).trans (V_main_arg0 m c))),
      ((h c).2 main_arg1 (Pipeline.mem_restRefs_of main_arg1 (by decide) (by decide))).trans (W_main_arg1 m (GenP.dats m) c),
      ((h c).2 main_arg2 (Pipeline.mem_restRefs_of main_arg2 (by decide) (by decide))).trans (W_main_arg2 m (GenP.dats m) c),
      ((h c).2 main_arg3 (Pipeline.mem_restRefs_of main_arg3 (by decide) (by decide))).trans (W_main_arg3 m (GenP.dats m) c),
      ((h c).2 main_arg4 (Pipeline.mem_restRefs_of main_arg4 (by decide) (by decide))).trans (W_main_arg4 m (GenP.dats m) c),
      ((h c).2 main_arg5 (Pipeline.mem_restRefs_of main_arg5 (by decide) (by decide))).trans (W_main_arg5 m (GenP.dats m) c),
      ((h c).2 main_arg6 (Pipeline.mem_restRefs_of main_arg6 (by decide) (by decide))).trans (W_main_arg6 m (GenP.dats m) c),
      ((h c).2 main_arg7 (Pipeline.mem_restRefs_of main_arg7 (by decide) (by decide))).trans (W_main_arg7 m (GenP.dats m) c)⟩)
    (GenP.run_main m ρ)

end Cert.KernelIdeal.Run

end
-- ==== Proof.RefStages.lean ====
/-
  The reference program's two results, member by member.

  Read one operation at a time, the reference computes for ensemble d, member e and batch row b

      h₁ (g) = silu (Σ_i (x (b, i) · masks (e, d, i)) · W1 (d, e, i, g) + b1 (d, e, g))
      h₂ (h) = silu (Σ_g h₁ (g) · W2 (d, e, g, h) + b2 (d, e, h))
      out (o) = Σ_h h₂ (h) · W3 (d, e, h, o) + b3 (d, e, o),

  returns out (0) as the mean and the clamp of out (1) as the log-variance.  Its silu is spelt with a negation, an
  exponential, a sum and a quotient, its soft-plus guard as an unordered comparison: both are the functions of
  `Cert.Mlp` on the extended reals.
-/
import proofs.«101378_j51470888075968_2_alg».proof.Proof.RefReadPatched
import proofs.«101378_j51470888075968_2_alg».proof.Proof.MlpSpec

noncomputable section

namespace Cert.ReferenceIdeal.RefStages

open Cert.ReferenceIdeal Cert.ReferenceIdeal.ReadP Idealize.ShloMosaic Idealize.ShloMosaic.ValueIdx
open scoped BigOperators

variable (x0 : S4096x23.Idx → EReal) (x1 : S10x18x23.Idx → EReal) (x2 : S18x10x23x128.Idx → EReal) (x3 : S18x10x128.Idx → EReal)
  (x4 : S18x10x128x128.Idx → EReal) (x5 : S18x10x128.Idx → EReal) (x6 : S18x10x128x2.Idx → EReal) (x7 : S18x10x2.Idx → EReal)

/-- The first silu, element by element. -/
theorem silu1 (i : S18x10x4096x128.Idx) :
    val_main_v10 (F := Ideal) x0 x1 x2 x3 i = Cert.Mlp.act (val_main_v9 (F := Ideal) x0 x1 x2 x3 i) :=
  (show _ = val_main_v9 (F := Ideal) x0 x1 x2 x3 i
      * Ideal.div Cert.Mlp.w1 (Cert.Mlp.w1 + Ideal.exp (-(val_main_v9 (F := Ideal) x0 x1 x2 x3 i))) from rfl).trans (Cert.Mlp.act_expanded _)

/-- The second silu, element by element. -/
theorem silu2 (i : S18x10x4096x128.Idx) :
    val_main_v15 (F := Ideal) x0 x1 x2 x3 x4 x5 i = Cert.Mlp.act (val_main_v14 (F := Ideal) x0 x1 x2 x3 x4 x5 i) :=
  (show _ = val_main_v14 (F := Ideal) x0 x1 x2 x3 x4 x5 i
      * Ideal.div Cert.Mlp.w1 (Cert.Mlp.w1 + Ideal.exp (-(val_main_v14 (F := Ideal) x0 x1 x2 x3 x4 x5 i))) from rfl).trans (Cert.Mlp.act_expanded _)

section
variable (d : Fin 18) (e : Fin 10) (b : Fin 4096)

/-- The first layer before its silu. -/
theorem pre1 (g : Fin 128) :
    val_main_v9 (F := Ideal) x0 x1 x2 x3 (ix4 d e b g)
      = (∑ i : Fin 23, (x0 (ix2 b i) * x1 (ix3 e d i)) * x2 (ix4 d e i g)) + x3 (ix3 d e g) := by
  rw [val_main_v9_apply, val_main_v6_apply, val_main_v8_apply, val_main_v7_apply]
  refine congrArg₂ (· + ·) (Finset.sum_congr rfl fun i _ => ?_) (congrArg x3 (funext fun a => Fin.ext (by match a with | ⟨0, _⟩ => rfl | ⟨1, _⟩ => rfl | ⟨2, _⟩ => rfl)))
  rw [val_main_v5_apply, val_main_v3_apply, val_main_v1_apply, val_main_v4_apply, val_main_v2_apply, val_main_v0_apply]
  refine congrArg₂ (· * ·) (congrArg₂ (· * ·) (congrArg x0 (funext fun a => Fin.ext (by match a with | ⟨0, _⟩ => rfl | ⟨1, _⟩ => rfl))) (congrArg x1 (funext fun a => Fin.ext (by match a with | ⟨0, _⟩ => rfl | ⟨1, _⟩ => rfl | ⟨2, _⟩ => rfl)))) (congrArg x2 (funext fun a => Fin.ext (by match a with | ⟨0, _⟩ => rfl | ⟨1, _⟩ => rfl | ⟨2, _⟩ => rfl | ⟨3, _⟩ => rfl)))

/-- The second layer before its silu. -/
theorem pre2 (h : Fin 128) :
    val_main_v14 (F := Ideal) x0 x1 x2 x3 x4 x5 (ix4 d e b h)
      = (∑ g : Fin 128, val_main_v10 (F := Ideal) x0 x1 x2 x3 (ix4 d e b g) * x4 (ix4 d e g h)) + x5 (ix3 d e h) := by
  rw [val_main_v14_apply, val_main_v11_apply, val_main_v13_apply, val_main_v12_apply]
  refine congrArg₂ (· + ·) (Finset.sum_congr rfl fun g _ => ?_) (congrArg x5 (funext fun a => Fin.ext (by match a with | ⟨0, _⟩ => rfl | ⟨1, _⟩ => rfl | ⟨2, _⟩ => rfl)))
  refine congrArg₂ (· * ·) (congrArg (val_main_v10 (F := Ideal) x0 x1 x2 x3) (funext fun a => Fin.ext (by match a with | ⟨0, _⟩ => rfl | ⟨1, _⟩ => rfl | ⟨2, _⟩ => rfl | ⟨3, _⟩ => rfl))) (congrArg x4 (funext fun a => Fin.ext (by match a with | ⟨0, _⟩ => rfl | ⟨1, _⟩ => rfl | ⟨2, _⟩ => rfl | ⟨3, _⟩ => rfl)))

/-- The third layer. -/
theorem out3 (o : Fin 2) :
    val_main_v19 (F := Ideal) x0 x1 x2 x3 x4 x5 x6 x7 (ix4 d e b o)
      = (∑ h : Fin 128, val_main_v15 (F := Ideal) x0 x1 x2 x3 x4 x5 (ix4 d e b h) * x6 (ix4 d e h o)) + x7 (ix3 d e o) := by
  rw [val_main_v19_apply, val_main_v16_apply, val_main_v18_apply, val_main_v17_apply]
  refine congrArg₂ (· + ·) (Finset.sum_congr rfl fun h _ => ?_) (congrArg x7 (funext fun a => Fin.ext (by match a with | ⟨0, _⟩ => rfl | ⟨1, _⟩ => rfl | ⟨2, _⟩ => rfl)))
  refine congrArg₂ (· * ·) (congrArg (val_main_v15 (F := Ideal) x0 x1 x2 x3 x4 x5) (funext fun a => Fin.ext (by match a with | ⟨0, _⟩ => rfl | ⟨1, _⟩ => rfl | ⟨2, _⟩ => rfl | ⟨3, _⟩ => rfl))) (congrArg x6 (funext fun a => Fin.ext (by match a with | ⟨0, _⟩ => rfl | ⟨1, _⟩ => rfl | ⟨2, _⟩ => rfl | ⟨3, _⟩ => rfl)))

/-- The three layers together, in the shape of `Cert.Mlp.out`. -/
theorem out3_eq (o : Fin 2) :
    val_main_v19 (F := Ideal) x0 x1 x2 x3 x4 x5 x6 x7 (ix4 d e b o)
      = Cert.Mlp.out (fun g => ∑ i : Fin 23, (x0 (ix2 b i) * x1 (ix3 e d i)) * x2 (ix4 d e i g)) (fun g => x3 (ix3 d e g))
          (fun g h => x4 (ix4 d e g h)) (fun h => x5 (ix3 d e h)) (fun h => x6 (ix4 d e h o)) (x7 (ix3 d e o)) := by
  unfold Cert.Mlp.out
  rw [out3]
  refine congrArg (· + _) (Finset.sum_congr rfl fun h _ => congrArg (· * _) ?_)
  rw [silu2, pre2]
  refine congrArg Cert.Mlp.act (congrArg (· + _) (Finset.sum_congr rfl fun g _ => congrArg (· * _) ?_))
  rw [silu1, pre1]

/-- The first result: the mean. -/
theorem mean_apply (z : Fin 1) :
    val_main_v20 (F := Ideal) x0 x1 x2 x3 x4 x5 x6 x7 (ix4 d e b z) = val_main_v19 (F := Ideal) x0 x1 x2 x3 x4 x5 x6 x7 (ix4 d e b (0 : Fin 2)) := by
  rw [val_main_v20_apply]
  refine congrArg (val_main_v19 (F := Ideal) x0 x1 x2 x3 x4 x5 x6 x7) (funext fun a => Fin.ext (by
    match a with
    | ⟨0, _⟩ => rfl
    | ⟨1, _⟩ => rfl
    | ⟨2, _⟩ => rfl
    | ⟨3, _⟩ => have := z.isLt; show z.val = 0; omega))

/-- The column the log-variance is cut from. -/
theorem col1_apply (z : Fin 1) :
    val_main_v21 (F := Ideal) x0 x1 x2 x3 x4 x5 x6 x7 (ix4 d e b z) = val_main_v19 (F := Ideal) x0 x1 x2 x3 x4 x5 x6 x7 (ix4 d e b (1 : Fin 2)) := by
  rw [val_main_v21_apply]
  refine congrArg (val_main_v19 (F := Ideal) x0 x1 x2 x3 x4 x5 x6 x7) (funext fun a => Fin.ext (by
    match a with
    | ⟨0, _⟩ => rfl
    | ⟨1, _⟩ => rfl
    | ⟨2, _⟩ => rfl
    | ⟨3, _⟩ => have := z.isLt; show 1 + z.val = 1; omega))

end

/-- The clamp, element by element: two soft-plus steps around the cut column. -/
theorem clamp_stage (i : S18x10x4096x1.Idx) :
    val_main_v31 (F := Ideal) x0 x1 x2 x3 x4 x5 x6 x7 i = Cert.Mlp.clamp (val_main_v21 (F := Ideal) x0 x1 x2 x3 x4 x5 x6 x7 i) := by
  have s1 : val_main_v24 (F := Ideal) x0 x1 x2 x3 x4 x5 x6 x7 i = Cert.Mlp.sp (val_main_v23 (F := Ideal) x0 x1 x2 x3 x4 x5 x6 x7 i) :=
    Cert.Mlp.sp_host_form _
  have s2 : val_main_v29 (F := Ideal) x0 x1 x2 x3 x4 x5 x6 x7 i = Cert.Mlp.sp (val_main_v28 (F := Ideal) x0 x1 x2 x3 x4 x5 x6 x7 i) :=
    Cert.Mlp.sp_host_form _
  show Cert.Mlp.wLo + val_main_v29 (F := Ideal) x0 x1 x2 x3 x4 x5 x6 x7 i = _
  rw [s2]
  show Cert.Mlp.wLo + Cert.Mlp.sp ((Cert.Mlp.wHi - val_main_v24 (F := Ideal) x0 x1 x2 x3 x4 x5 x6 x7 i) - Cert.Mlp.wLo) = _
  rw [s1]
  rfl

end Cert.ReferenceIdeal.RefStages

end
-- ==== Proof.Bridge.lean ====
/-
  The two programs compute the same two arrays.

  Entry (d, e, b, 0) of the reference's first result and of the kernel's are both the first output of member (d, e)
  at batch row b; of the second results, the clamp of its second output.  The members are the same function of the
  arguments but for the place of the mask in the first layer's contraction, and Σ_i x_i · (m_i · w_i) = Σ_i (x_i · m_i) · w_i
  term by term.
-/
import proofs.«101378_j51470888075968_2_alg».proof.Proof.KernelRun
import proofs.«101378_j51470888075968_2_alg».proof.Proof.RefStages

noncomputable section

namespace Cert.Proof.Bridge

open Cert.KernelIdeal.Arrays Cert.KernelIdeal.Val Cert.KernelIdeal.Run
open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ) (c : Dev Cert.KernelIdeal.nD)

/-- A member computed with the mask on the inputs is the member computed with the mask folded into the weights. -/
theorem member_eq (d : Fin 18) (e : Fin 10) (o : Fin 2) (b : Fin 4096) :
    Cert.Mlp.out (fun g => ∑ i : Fin 23, (aX m c (ix2 b i) * aMask m c (ix3 e d i)) * aW1 m c (ix4 d e i g)) (fun g => aB1 m c (ix3 d e g))
        (fun g h => aW2 m c (ix4 d e g h)) (fun h => aB2 m c (ix3 d e h)) (fun h => aW3 m c (ix4 d e h o)) (aB3 m c (ix3 d e o))
      = memberOut m c d e o b := by
  unfold memberOut
  refine congrArg (fun s => Cert.Mlp.out s _ _ _ _ _) (funext fun g => ?_)
  exact (Cert.Mlp.mask_fold (fun i => aX m c (ix2 b i)) (fun i => aMask m c (ix3 e d i)) (fun i => aW1 m c (ix4 d e i g))).symm

/-- The reference's first result is the kernel's. -/
theorem mean_eq :
    Cert.ReferenceIdeal.ReadP.val_main_v20 (F := Ideal) (aX m c) (aMask m c) (aW1 m c) (aB1 m c) (aW2 m c) (aB2 m c) (aW3 m c) (aB3 m c)
      = meanArr m c := by
  funext i
  obtain ⟨d, e, b, z, rfl⟩ : ∃ (d : Fin 18) (e : Fin 10) (b : Fin 4096) (z : Fin 1), i = ix4 d e b z := ⟨i 0, i 1, i 2, i 3, eq_ix4 i⟩
  rw [Cert.ReferenceIdeal.RefStages.mean_apply, Cert.ReferenceIdeal.RefStages.out3_eq, meanArr_apply]
  exact member_eq m c d e 0 b

/-- The reference's second result is the kernel's. -/
theorem logvar_eq :
    Cert.ReferenceIdeal.ReadP.val_main_v31 (F := Ideal) (aX m c) (aMask m c) (aW1 m c) (aB1 m c) (aW2 m c) (aB2 m c) (aW3 m c) (aB3 m c)
      = logvarArr m c := by
  funext i
  obtain ⟨d, e, b, z, rfl⟩ : ∃ (d : Fin 18) (e : Fin 10) (b : Fin 4096) (z : Fin 1), i = ix4 d e b z := ⟨i 0, i 1, i 2, i 3, eq_ix4 i⟩
  rw [Cert.ReferenceIdeal.RefStages.clamp_stage, Cert.ReferenceIdeal.RefStages.col1_apply, Cert.ReferenceIdeal.RefStages.out3_eq, logvarArr_apply]
  exact congrArg Cert.Mlp.clamp (member_eq m c d e 1 b)

end Cert.Proof.Bridge

end
-- ==== Proof.lean ====
/-
  An ensemble of 18 × 10 masked three-layer perceptrons, as a tiled kernel and as plain array code: both compute the
  same two arrays on the extended reals.

  The kernel folds the input mask into the first layer's weights on the host, flattens the 180 members, and runs ten
  members per grid point in a loop; the reference masks the inputs and contracts with batched products.  Member (d, e)
  at batch row b is, on both sides, three dense layers with silu between them; the first output is the mean, the second
  is clamped into [−10, 5] by two soft-plus steps.  The only algebraic law between the two is associativity of the
  product, Σ_i x_i · (m_i · w_i) = Σ_i (x_i · m_i) · w_i, which holds at the infinities too, so the precondition is not
  opened.  The ideal pass rewrote nothing, so the idealization claim is trivial.
-/
import proofs.«101378_j51470888075968_2_alg».proof.Defs
import proofs.«101378_j51470888075968_2_alg».proof.Proof.Gen.Kernel
import proofs.«101378_j51470888075968_2_alg».proof.Proof.Gen.KernelIdeal
import proofs.«101378_j51470888075968_2_alg».proof.Proof.Gen.ReferenceIdeal
import proofs.«101378_j51470888075968_2_alg».proof.Proof.Gen.Pre_finite_inputs
import proofs.«101378_j51470888075968_2_alg».proof.Proof.KernelFramePatched
import proofs.«101378_j51470888075968_2_alg».proof.Proof.KernelIdealFramePatched
import proofs.«101378_j51470888075968_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.GenP.frame m ρ

/-- So does the kernel read on the extended reals. -/
theorem frame_ki : Cert.frame_KernelIdeal := fun m ρ _ => Cert.KernelIdeal.GenP.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Nothing was rewritten on the way to the extended reals. -/
theorem preserves : Cert.preserves_Kernel_KernelIdeal := trivial

/-- From memories that agree on the arguments both programs end with the means and the clamped log-variances of
    all 180 members: the kernel's two result arrays are the reference's, entry by entry. -/
theorem algebraic : Cert.algebraic_KernelIdeal_ReferenceIdeal := by
  intro m ρ m' ρ' _ hagree
  refine ⟨fun c => Cert.KernelIdeal.Run.meanArr m c, fun c => Cert.KernelIdeal.Run.logvarArr m c, Cert.KernelIdeal.Run.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v20_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.Proof.Bridge.mean_eq m c
  · rw [Cert.ReferenceIdeal.ReadP.val_main_v31_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.Proof.Bridge.logvar_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
